-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x512 : Shape := ⟨3, ![256, 64, 512]⟩
abbrev S512x512 : Shape := ⟨2, ![512, 512]⟩
abbrev S512 : Shape := ⟨1, ![512]⟩
abbrev S_ : Shape := ⟨0, ![]⟩

class Facts : Prop where
  bcast_S_S256x64x512 : S_.BroadcastsInDim S256x64x512 (![] : Fin 0 → Fin S256x64x512.rank)
  reducesTo_S256x64x512_S_d0_1_2 : S256x64x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x512 .f32) (main_arg8 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512x512 .f32) (main_arg5 : FVec F S512x512 .f32) (main_arg6 : FVec F S512x512 .f32) (main_arg7 : FVec F S512x512 .f32) (main_arg8 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_v33

def fn {F : FTy → Type} [FloatOps F] (main_arg0 : FVec F S256x64x512 .f32) (main_arg1 : FVec F S256x64x512 .f32) (main_arg2 : FVec F S512x512 .f32) (main_arg3 : FVec F S512x512 .f32) (main_arg4 : FVec F S512x512 .f32) (main_arg5 : FVec F S512x512 .f32) (main_arg6 : FVec F S512x512 .f32) (main_arg7 : FVec F S512x512 .f32) (main_arg8 : FVec F S512 .f32) : IVec S_ 1 :=
  let main_v0 : FVec F S256x64x512 .f32 := Host.absf main_arg0
  let main_cst : FVec F S_ .f32 := constant S_ .f32 0x7F800000#32
  let main_v1 : FVec F S256x64x512 .f32 := broadcastInDim S256x64x512 ![] bcast_S_S256x64x512 main_cst
  let main_v2 : IVec S256x64x512 1 := cmpf .olt main_v0 main_v1
  let main_c : IVec S_ 1 := constantI S_ 1 1#1
  let main_v3 : IVec S_ 1 := (fun x v => Host.reduce IntOp.andi x v reducesTo_S256x64x512_S_d0_1_2 h_S_) main_v2 main_c
  let main_v4 : FVec F S256x64x512 .f32 := Host.absf main_arg1
  let main_cst_0 : FVec F S_ .f32 := constant S_ .f32 0x7F800000#32
  let main_v5 : FVec F S256x64x512 .f32 := broadcastInDim S256x64x512 ![] bcast_S_S256x64x512 main_cst_0
  let main_v6 : IVec S256x64x512 1 := cmpf .olt main_v4 main_v5
  let main_c_1 : IVec S_ 1 := constantI S_ 1 1#1
  let main_v7 : IVec S_ 1 := (fun x v => Host.reduce IntOp.andi x v reducesTo_S256x64x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S256x64x512 : Shape := ⟨3, ![256, 64, 512]⟩
abbrev S512x512 : Shape := ⟨2, ![512, 512]⟩
abbrev S512 : Shape := ⟨1, ![512]⟩
abbrev S16384x512 : Shape := ⟨2, ![16384, 512]⟩
abbrev S512x1536 : Shape := ⟨2, ![512, 1536]⟩
abbrev S512x1024 : Shape := ⟨2, ![512, 1024]⟩
abbrev S1x512 : Shape := ⟨2, ![1, 512]⟩

abbrev nBuf : Space → Nat
  | .hbm => 28
  | .vmem => 10
  | .smem => 0
  | _ => 0

abbrev bufTy : (tb : Table) → Fin (tcTables nBuf tb) → BufTy
  | .hbm, ⟨0, _⟩ => ⟨S256x64x512, .f32⟩
  | .hbm, ⟨1, _⟩ => ⟨S256x64x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S16384x512, .f32⟩
  | .hbm, ⟨10, _⟩ => ⟨S16384x512, .f32⟩
  | .hbm, ⟨11, _⟩ => ⟨S512x512, .f32⟩
  | .hbm, ⟨12, _⟩ => ⟨S512x512, .bf16⟩
  | .hbm, ⟨13, _⟩ => ⟨S512x512, .f32⟩
  | .hbm, ⟨14, _⟩ => ⟨S512x512, .bf16⟩
  | .hbm, ⟨15, _⟩ => ⟨S512x512, .f32⟩
  | .hbm, ⟨16, _⟩ => ⟨S512x512, .bf16⟩
  | .hbm, ⟨17, _⟩ => ⟨S512x512, .f32⟩
  | .hbm, ⟨18, _⟩ => ⟨S512x512, .bf16⟩
  | .hbm, ⟨19, _⟩ => ⟨S512x512, .f32⟩
  | .hbm, ⟨20, _⟩ => ⟨S512x512, .bf16⟩
  | .hbm, ⟨21, _⟩ => ⟨S512x512, .f32⟩
  | .hbm, ⟨22, _⟩ => ⟨S512x512, .bf16⟩
  | .hbm, ⟨23, _⟩ => ⟨S512x1536, .bf16⟩
  | .hbm, ⟨24, _⟩ => ⟨S512x1024, .bf16⟩
  | .hbm, ⟨25, _⟩ => ⟨S1x512, .f32⟩
  | .hbm, ⟨26, _⟩ => ⟨S16384x512, .f32⟩
  | .hbm, ⟨27, _⟩ => ⟨S256x64x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1536, .bf16⟩
  | .local _ .vmem, ⟨5, _⟩ => ⟨S512x1024, .bf16⟩
  | .local _ .vmem, ⟨6, _⟩ => ⟨S512x512, .bf16⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S256x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256x64x512_S16384x512 : S256x64x512.ShapeCasts S16384x512
  transposes_S512x512_S512x512_1_0 : S512x512.Transposes [1, 0] S512x512
  bitsLt_bf16_f32 : FTy.bits .bf16 < FTy.bits .f32
  concatenates_S512x512_S512x512_S512x512_S512x1536_d1 : Shape.Concatenates [S512x512, S512x512, S512x512] S512x1536 1
  concatenates_S512x512_S512x512_S512x1024_d1 : Shape.Concatenates [S512x512, S512x512] S512x1024 1
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  slices_S512x1536_o0_0_S512x512 : S512x1536.Slices ![0, 0] S512x512
  slices_S512x1024_o0_0_S512x512 : S512x1024.Slices ![0, 0] S512x512
  slices_S512x1536_o0_512_S512x512 : S512x1536.Slices ![0, 512] S512x512
  slices_S512x1024_o0_512_S512x512 : S512x1024.Slices ![0, 512] S512x512
  broadcasts_S1x512_S512x512 : S1x512.Broadcasts S512x512
  slices_S512x1536_o0_1024_S512x512 : S512x1536.Slices ![0, 1024] S512x512
  shapeCasts_S16384x512_S256x64x512 : S16384x512.ShapeCasts S256x64x512
  dot_S512x512_S512x1536_S512x1536_1_0_0_1_n_n_wf : DotDims.WF S512x512 S512x1536 S512x1536 [1] [0] [0] [1] [] []
  dot_S512x512_S512x1024_S512x1024_1_0_0_1_n_n_wf : DotDims.WF S512x512 S512x1024 S512x1024 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x64x512 : Shape := ⟨3, ![256, 64, 512]⟩
abbrev S512x512 : Shape := ⟨2, ![512, 512]⟩
abbrev S512 : Shape := ⟨1, ![512]⟩
abbrev S_ : Shape := ⟨0, ![]⟩
abbrev S1x1x512 : Shape := ⟨3, ![1, 1, 512]⟩

abbrev nBuf : Space → Nat
  | .hbm => 45
  | .vmem => 0
  | .smem => 0
  | _ => 0

abbrev bufTy : (tb : Table) → Fin (tcTables nBuf tb) → BufTy
  | .hbm, ⟨0, _⟩ => ⟨S256x64x512, .f32⟩
  | .hbm, ⟨1, _⟩ => ⟨S256x64x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512, .f32⟩
  | .hbm, ⟨9, _⟩ => ⟨S256x64x512, .f32⟩
  | .hbm, ⟨10, _⟩ => ⟨S256x64x512, .f32⟩
  | .hbm, ⟨11, _⟩ => ⟨S256x64x512, .f32⟩
  | .hbm, ⟨12, _⟩ => ⟨S256x64x512, .f32⟩
  | .hbm, ⟨13, _⟩ => ⟨S256x64x512, .f32⟩
  | .hbm, ⟨14, _⟩ => ⟨S_, .f32⟩
  | .hbm, ⟨15, _⟩ => ⟨S256x64x512, .f32⟩
  | .hbm, ⟨16, _⟩ => ⟨S256x64x512, .f32⟩
  | .hbm, ⟨17, _⟩ => ⟨S_, .f32⟩
  | .hbm, ⟨18, _⟩ => ⟨S256x64x512, .f32⟩
  | .hbm, ⟨19, _⟩ => ⟨S256x64x512, .f32⟩
  | .hbm, ⟨20, _⟩ => ⟨S256x64x512, .f32⟩
  | .hbm, ⟨21, _⟩ => ⟨S256x64x512, .f32⟩
  | .hbm, ⟨22, _⟩ => ⟨S256x64x512, .f32⟩
  | .hbm, ⟨23, _⟩ => ⟨S1x1x512, .f32⟩
  | .hbm, ⟨24, _⟩ => ⟨S256x64x512, .f32⟩
  | .hbm, ⟨25, _⟩ => ⟨S256x64x512, .f32⟩
  | .hbm, ⟨26, _⟩ => ⟨S256x64x512, .f32⟩
  | .hbm, ⟨27, _⟩ => ⟨S256x64x512, .f32⟩
  | .hbm, ⟨28, _⟩ => ⟨S_, .f32⟩
  | .hbm, ⟨29, _⟩ => ⟨S256x64x512, .f32⟩
  | .hbm, ⟨30, _⟩ => ⟨S256x64x512, .f32⟩
  | .hbm, ⟨31, _⟩ => ⟨S_, .f32⟩
  | .hbm, ⟨32, _⟩ => ⟨S256x64x512, .f32⟩
  | .hbm, ⟨33, _⟩ => ⟨S256x64x512, .f32⟩
  | .hbm, ⟨34, _⟩ => ⟨S256x64x512, .f32⟩
  | .hbm, ⟨35, _⟩ => ⟨S256x64x512, .f32⟩
  | .hbm, ⟨36, _⟩ => ⟨S256x64x512, .f32⟩
  | .hbm, ⟨37, _⟩ => ⟨S256x64x512, .f32⟩
  | .hbm, ⟨38, _⟩ => ⟨S256x64x512, .f32⟩
  | .hbm, ⟨39, _⟩ => ⟨S_, .f32⟩
  | .hbm, ⟨40, _⟩ => ⟨S256x64x512, .f32⟩
  | .hbm, ⟨41, _⟩ => ⟨S256x64x512, .f32⟩
  | .hbm, ⟨42, _⟩ => ⟨S256x64x512, .f32⟩
  | .hbm, ⟨43, _⟩ => ⟨S256x64x512, .f32⟩
  | .hbm, ⟨44, _⟩ => ⟨S256x64x512, .f32⟩
  | _, _ => ⟨S256x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S_S256x64x512 : S_.BroadcastsInDim S256x64x512 (![] : Fin 0 → Fin S256x64x512.rank)
  bcast_S512_S1x1x512_2 : S512.BroadcastsInDim S1x1x512 (![2] : Fin 1 → Fin S1x1x512.rank)
  bcast_S1x1x512_S256x64x512_0_1_2 : S1x1x512.BroadcastsInDim S256x64x512 (![0, 1, 2] : Fin 3 → Fin S256x64x512.rank)
  dot_S256x64x512_S512x512_S256x64x512_2_1_01_0_n_n_wf : DotDims.WF S256x64x512 S512x512 S256x64x512 [2] [1] [0, 1] [0] [] []

variable [Facts₀]

def dot_S256x64x512_S512x512_S256x64x512_2_1_01_0_n_n : DotDims S256x64x512 S512x512 S256x64x512 where
  lhsContracting := [2]
  rhsContracting := [1]
  lhsNonContracting := [0, 1]
  rhsNonContracting := [0]
  lhsBatch := []
  rhsBatch := []
  wf := dot_S256x64x512_S512x512_S256x64x512_2_1_01_0_n_n_wf

class Facts : Prop extends Facts₀ where

variable [Facts]
-- ==== Proof.BitsAround.lean ====
/-
  @main of the program is seventeen host operations, one pipelined region, one host operation.

  The host operations before the region prepare the region's operands from the arguments: the two sequences re-laid
  as 16384 × 512 matrices, each of the six weight matrices transposed (and cast, which changes no number at the ideal
  instance), three of the transposes set side by side as a 512 × 1536 matrix and two as a 512 × 1024 one, the bias
  re-laid as a 1 × 512 row. The one after it re-lays the region's 16384 × 512 result as 256 × 64 × 512.

  Stated here: what every buffer holds when the region is entered (the host operations' composed result on the
  launch contents); that @main is "those lines, the region, that line"; that the lines allocate nothing, touch
  only TensorCore buffers, and that the last line writes no array the region stages; and that no line, before or
  after, writes an argument array — each argument is found, and left, as launched.
-/
import proofs.«126726_j19524921328134_2_alg».proof.Proof.Gen.Kernel.Launch
import proofs.«126726_j19524921328134_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents at region entry -/

/-- Every TensorCore buffer of core `c` when the region is entered: the launch contents after the seventeen host
    operations. -/
abbrev entryAll (c : Dev nD) : Valuation τ sig (Elt F) := StableHlo.after (List.flatten [hostOps0]) (fun b => m (c, b))

/-- The same, read at one buffer. -/
abbrev entry (c : Dev nD) (b : Ref sig .tc) : Buf (Elt F) ((c : Thread nD τ).loc b) := entryAll m c (Proc.devRef .tc b)

/-! ## The host lines allocate nothing -/

theorem prefix_allocates_nothing : (hostOps0 : List (HloOp τ sig (Elt F))).Forall fun op => op.fresh = ∅ := by
  simp only [List.Forall]; repeat' constructor

theorem suffix_allocates_nothing : (hostOps1 : List (HloOp τ sig (Elt F))).Forall fun op => op.fresh = ∅ := by
  simp only [List.Forall]; repeat' constructor

/-! ## @main is the lines, the region, the line -/

/-- @main reduces to the region entered at `entry` and continued by the last host line. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-! ## The line after the region -/

/-- It touches only arrays of the pipeline and buffers that bypass it. -/
theorem suffix_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- It allocates nothing. -/
theorem suffix_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp suffix_allocates_nothing) op hop

/-- It writes its own result buffer only, which is none of the seven arrays the region stages. -/
theorem suffix_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-! ## No host line writes an argument -/

/-- A buffer none of the seventeen lines before the region writes is found as launched. -/
theorem entry_of_unwritten (c : Dev nD) (b : Ref sig .tc)
    (hb : ∀ y ∈ ([main_v0, main_v1, main_v2, main_v3, main_v4, main_v5, main_v6, main_v7, main_v8, main_v9, main_v10, main_v11,
      main_v12, main_v13, main_v14, main_v15, main_v16] : List (Ref sig .tc)), b ≠ y) :
    entry m c b = m ((c : Thread nD τ).loc b) := by
  refine StableHlo.after_of_forall_not_mem (b := Proc.devRef .tc b) _ _ (List.forall_iff_forall_mem.mp ?_)
  simp only [hostOps0, List.flatten_cons, List.flatten_nil, List.append_nil, List.cons_append, List.nil_append, List.Forall,
    StableHlo.unary_writes, StableHlo.binary_writes, StableHlo.reshape_writes, StableHlo.nary_writes, Finset.mem_singleton]
  simp only [List.mem_cons, List.mem_nil_iff, or_false, forall_eq_or_imp, forall_eq] at hb
  obtain ⟨h0, h1, h2, h3, h4, h5, h6, h7, h8, h9, h10, h11, h12, h13, h14, h15, h16⟩ := hb
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12, StableHlo.devRef_ne_of_ne h13, StableHlo.devRef_ne_of_ne h14, StableHlo.devRef_ne_of_ne h15,
    StableHlo.devRef_ne_of_ne h16⟩

/-- A buffer that is no array of the pipeline, and that neither the lines before the region nor the line after it
    write, ends as launched. -/
theorem exit_of_unwritten (dats : (p : Fin 1) → (c : Dev nD) → Dat τ (Elt F) Unit ℕ (UR sig nD τ) ℕ (cfgs p) c) (c : Dev nD)
    (b : Ref sig .tc)
    (hb : ∀ y ∈ ([main_v0, main_v1, main_v2, main_v3, main_v4, main_v5, main_v6, main_v7, main_v8, main_v9, main_v10, main_v11,
      main_v12, main_v13, main_v14, main_v15, main_v16] : List (Ref sig .tc)), b ≠ y)
    (hlast : b ≠ main_v18) (harr : ∀ w, Pipeline.arrRef spec0 w ≠ b) :
    Pipeline.afterTail₀ cfgs dats 0 (entryAll m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.reshape_writes, Finset.mem_singleton]
      exact StableHlo.devRef_ne_of_ne hlast)),
    Pipeline.withArrays_of_ne _ c (entryAll m c) _ b harr]
  exact entry_of_unwritten m c b hb

end Cert.Kernel.Around

end
-- ==== Proof.BitsBody.lean ====
/-
  The kernel body at one grid point, as a triple.

  The body reads six whole staging blocks — a 512 × 512 block of each sequence, the 512 × 1536 and 512 × 1024
  matrices of transposed weights set side by side, the 512 × 512 transposed matrix of the candidate, the 1 × 512
  bias row —, reads (and ignores) what its output block held, computes, and stores ONE 512 × 512 value over the
  whole output block. So after the body the six input blocks are as they were and the output block holds that one
  value: a function of the six blocks alone, whatever the output block held before.
-/
import proofs.«126726_j19524921328134_2_alg».proof.Proof.Gen.Kernel.Launch
import proofs.«126726_j19524921328134_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each a whole block -/

abbrev sq : Rect S512x512 := Rect.unit (s := S512x512) ![0, 0] S512x512.size inb_S512x512_S512x512_0_0
abbrev wide3 : Rect S512x1536 := Rect.unit (s := S512x1536) ![0, 0] S512x1536.size inb_S512x1536_S512x1536_0_0
abbrev wide2 : Rect S512x1024 := Rect.unit (s := S512x1024) ![0, 0] S512x1024.size inb_S512x1024_S512x1024_0_0
abbrev flat : Rect S1x512 := Rect.unit (s := S1x512) ![0, 0] S1x512.size inb_S1x512_S1x512_0_0

/-! ## What the body stores -/

/-- The stored value as a function of the six values loaded: the block of x, the block of y, the three transposed
    weights of the y side, the two of the x side, the candidate's, the bias row. -/
abbrev stored (x0 y0 : Vec F S512x512 .f32) (wy : Vec F S512x1536 .bf16) (ux : Vec F S512x1024 .bf16)
    (ug : Vec F S512x512 .bf16) (bv : Vec F S1x512 .f32) : FVec F S512x512 .f32 :=
  k0_pay1 (k0_pay2 x0) (k0_pay3 ug) (k0_pay6 y0 wy) (k0_pay7 x0 y0 wy ux) (k0_pay8 x0 y0 wy ux bv)

/-- The output block after the body: its one store, over the whole block, of the stored value of the blocks read. -/
def outBlock (x0 y0 : Vec F S512x512 .f32) (wy : Vec F S512x1536 .bf16) (ux : Vec F S512x1024 .bf16)
    (ug : Vec F S512x512 .bf16) (bv : Vec F S1x512 .f32) : Vec F S512x512 .f32 :=
  View.canon [⟨sq, stored (View.ld x0 sq) (View.ld y0 sq) (View.ld wy wide3) (View.ld ux wide2) (View.ld ug sq) (View.ld bv flat)⟩]

/-- The one store covers the block. -/
theorem store_covers (p0 : Vec F S512x512 .f32) (y : S512x512.Idx) :
    ∃ pc ∈ ([⟨sq, p0⟩] : List (View.Piece (Elt F) S512x512 .f32)), y ∈ pc.1.set :=
  View.cover_of_tiled [⟨sq, p0⟩] S512x512.size (by rfl) y

/-! ## The triple -/

set_option maxHeartbeats 1000000 in
/-- On whole staging buffers, the six inputs' at contents read and the output's at anything, the body runs to its
    continuation with the inputs' as they were and the output's at `outBlock` of the inputs'. -/
theorem body_triple (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x1536 .bf16) (harg3 : arg3.IsWhole) (arg4 : Memref sig .tc .vmem S512x1024 .bf16) (harg4 : arg4.IsWhole)
    (arg5 : Memref sig .tc .vmem S512x512 .bf16) (harg5 : arg5.IsWhole) (arg6 : Memref sig .tc .vmem S1x512 .f32) (harg6 : arg6.IsWhole)
    (arg7 : Memref sig .tc .vmem S512x512 .f32) (harg7 : arg7.IsWhole)
    (x0 y0 : Vec F S512x512 .f32) (wy : Vec F S512x1536 .bf16) (ux : Vec F S512x1024 .bf16) (ug : Vec F S512x512 .bf16) (bv : Vec F S1x512 .f32)
    (K : PUnit → sProp 𝕄) :
    iprop(owns (c : Thread nD τ) arg1 fullShare x0 ∗ owns (c : Thread nD τ) arg2 fullShare y0 ∗ owns (c : Thread nD τ) arg3 fullShare wy
        ∗ owns (c : Thread nD τ) arg4 fullShare ux ∗ owns (c : Thread nD τ) arg5 fullShare ug ∗ owns (c : Thread nD τ) arg6 fullShare bv
        ∗ (∃ d, owns (c : Thread nD τ) arg7 fullShare d)
        ∗ (iprop(owns (c : Thread nD τ) arg1 fullShare x0 ∗ owns (c : Thread nD τ) arg2 fullShare y0 ∗ owns (c : Thread nD τ) arg3 fullShare wy
            ∗ owns (c : Thread nD τ) arg4 fullShare ux ∗ owns (c : Thread nD τ) arg5 fullShare ug ∗ owns (c : Thread nD τ) arg6 fullShare bv
            ∗ owns (c : Thread nD τ) arg7 fullShare (outBlock x0 y0 wy ux ug bv)) -∗ K ⟨⟩))
      ⊢ wp frame (wpE (defs₀ (F := F)) Variants.none c none) E
          (cc0__gru_kernel i arg1 harg1 arg2 harg2 arg3 harg3 arg4 harg4 arg5 harg5 arg6 harg6 arg7 harg7) K := by
  simp only [cc0__gru_kernel_eq_skeleton]; unfold cc0__gru_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (store_covers _)

end Cert.Kernel.Around

end
-- ==== Proof.BitsRun.lean ====
/-
  The pipelined region, point by point, and the run of @main.

  The grid has 32 points; point t works on rows 512·t … 512·t + 511 of the two re-laid sequences and of the result,
  and on the WHOLE of the three weight matrices and of the bias row (their block index never moves, so they are
  fetched once, at the first point, and found in place afterwards). The proof data of the pipeline: each staged
  array as the region finds it; after the body at point t, each input's staging block at its array's block there and
  the output's at the body's stored value of those six blocks. With the body's triple this is the body's obligation
  at every point, and the library's frame run around a region gives: every weakly fair execution of @main ends, with
  every array of the pipeline at what the proof data computes and every other buffer as the last host line leaves it —
  in particular each argument array, which no line writes, as launched.
-/
import proofs.«126726_j19524921328134_2_alg».proof.Proof.BitsAround
import proofs.«126726_j19524921328134_2_alg».proof.Proof.BitsBody

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the proof data -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The proof data on core `c`: the arrays as found; after the body at point `t` the six inputs' blocks in place and the
    output's block at the stored value of those; the invariant the scoped rest and the generator register, untouched;
    full shares; nothing owed. -/
def data (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => outBlock (blockAt m c 0 t) (blockAt m c 1 t) (blockAt m c 2 t) (blockAt m c 3 t) (blockAt m c 4 t) (blockAt m c 5 t)
  Φ _ := Pipeline.ΦA spec0 c
  q _ := fullShare
  owed _ := 0

theorem array_eq (c : Dev nD) (w : Fin cfg0.W) : (data m 0 c).A w = entry m c (Pipeline.arrRef spec0 w) := by
  dsimp only [data]

theorem left0 (c : Dev nD) (t : Fin cfg0.N) : (data m 0 c).after 0 t = blockAt m c 0 t := by dsimp only [data]
theorem left1 (c : Dev nD) (t : Fin cfg0.N) : (data m 0 c).after 1 t = blockAt m c 1 t := by dsimp only [data]
theorem left2 (c : Dev nD) (t : Fin cfg0.N) : (data m 0 c).after 2 t = blockAt m c 2 t := by dsimp only [data]
theorem left3 (c : Dev nD) (t : Fin cfg0.N) : (data m 0 c).after 3 t = blockAt m c 3 t := by dsimp only [data]
theorem left4 (c : Dev nD) (t : Fin cfg0.N) : (data m 0 c).after 4 t = blockAt m c 4 t := by dsimp only [data]
theorem left5 (c : Dev nD) (t : Fin cfg0.N) : (data m 0 c).after 5 t = blockAt m c 5 t := by dsimp only [data]
theorem left6 (c : Dev nD) (t : Fin cfg0.N) : (data m 0 c).after 6 t
    = outBlock (blockAt m c 0 t) (blockAt m c 1 t) (blockAt m c 2 t) (blockAt m c 3 t) (blockAt m c 4 t) (blockAt m c 5 t) := by
  dsimp only [data]

/-! ## Each input's staging block holds its array's block at every point, fetched there or not -/

theorem found0 (c : Dev nD) (t : Fin cfg0.N) (d) : (data m 0 c).before 0 t d = blockAt m c 0 t :=
  ((data m 0 c).before_in_eq_fetched 0 rfl (fun _ => rfl) (fun _ _ _ => rfl)
    (fun t => by rw [left0]; unfold Dat.blockOf blockAt; rw [array_eq]; try rfl) t d).trans
    (by unfold Dat.fetched Dat.blockOf blockAt; rw [array_eq]; try rfl)
theorem found1 (c : Dev nD) (t : Fin cfg0.N) (d) : (data m 0 c).before 1 t d = blockAt m c 1 t :=
  ((data m 0 c).before_in_eq_fetched 1 rfl (fun _ => rfl) (fun _ _ _ => rfl)
    (fun t => by rw [left1]; unfold Dat.blockOf blockAt; rw [array_eq]; try rfl) t d).trans
    (by unfold Dat.fetched Dat.blockOf blockAt; rw [array_eq]; try rfl)
theorem found2 (c : Dev nD) (t : Fin cfg0.N) (d) : (data m 0 c).before 2 t d = blockAt m c 2 t :=
  ((data m 0 c).before_in_eq_fetched 2 rfl (fun _ => rfl) (fun _ _ _ => rfl)
    (fun t => by rw [left2]; unfold Dat.blockOf blockAt; rw [array_eq]; try rfl) t d).trans
    (by unfold Dat.fetched Dat.blockOf blockAt; rw [array_eq]; try rfl)
theorem found3 (c : Dev nD) (t : Fin cfg0.N) (d) : (data m 0 c).before 3 t d = blockAt m c 3 t :=
  ((data m 0 c).before_in_eq_fetched 3 rfl (fun _ => rfl) (fun _ _ _ => rfl)
    (fun t => by rw [left3]; unfold Dat.blockOf blockAt; rw [array_eq]; try rfl) t d).trans
    (by unfold Dat.fetched Dat.blockOf blockAt; rw [array_eq]; try rfl)
theorem found4 (c : Dev nD) (t : Fin cfg0.N) (d) : (data m 0 c).before 4 t d = blockAt m c 4 t :=
  ((data m 0 c).before_in_eq_fetched 4 rfl (fun _ => rfl) (fun _ _ _ => rfl)
    (fun t => by rw [left4]; unfold Dat.blockOf blockAt; rw [array_eq]; try rfl) t d).trans
    (by unfold Dat.fetched Dat.blockOf blockAt; rw [array_eq]; try rfl)
theorem found5 (c : Dev nD) (t : Fin cfg0.N) (d) : (data m 0 c).before 5 t d = blockAt m c 5 t :=
  ((data m 0 c).before_in_eq_fetched 5 rfl (fun _ => rfl) (fun _ _ _ => rfl)
    (fun t => by rw [left5]; unfold Dat.blockOf blockAt; rw [array_eq]; try rfl) t d).trans
    (by unfold Dat.fetched Dat.blockOf blockAt; rw [array_eq]; try rfl)

/-! ## The body's obligation at a generic point -/

/-- What the body is called with at point `t`. -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d)))

/-- What it returns. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t))

/-- The body at any point: the inputs' buffers hold their blocks, so the triple applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (data m 0 c).Φ t.succ = (data m 0 c).Φ t.castSucc from rfl,
    show (data m 0 c).owesAt () t.succ = (data m 0 c).owesAt () t.castSucc from rfl,
    left0, left1, left2, left3, left4, left5, left6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (data (F := F) m 0 c) (defs₀ (F := F)) Variants.none () Set.univ := fun t => by
  rw [bigSep_W0, bigSep_W0]
  exact body_at m c t

/-! ## The run and the frame -/

set_option backward.isDefEq.respectTransparency.types false in
/-- From any memory with zero counters, every weakly fair execution of @main on the TensorCores terminates, and every
    final state has each array of the pipeline at what the proof data computes and every other unscoped buffer as the last
    host line leaves it. -/
theorem run_main : θ_run defs (onTc (τ := τ) (main (F := F))) (s₀ m ρ)
    (Pipeline.FramePost cfgs (data m) 0 (Pipeline.afterTail₀ cfgs (data m) 0 (entryAll m) [hostOps1])) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := entryAll m) (opss := [hostOps1]) (hsub := suffix_within) (hfresh := suffix_fresh)
    (hkeep := suffix_keeps_arrays) (hmain := main_around m Variants.none) (hA := array_eq m) (hΦ := fun _ _ => rfl)

/-- The frame: @main runs to the end, faults nowhere, and leaves each of its nine argument arrays as launched — none is
    an array of the pipeline, and no host line, before or after the region, writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_arg0 (Pipeline.mem_restRefs_of main_arg0 (by decide) (by decide))).trans
        (exit_of_unwritten m (data m) c main_arg0 (by decide) (by decide) (by decide)),
      ((h c).2 main_arg1 (Pipeline.mem_restRefs_of main_arg1 (by decide) (by decide))).trans
        (exit_of_unwritten m (data m) c main_arg1 (by decide) (by decide) (by decide)),
      ((h c).2 main_arg2 (Pipeline.mem_restRefs_of main_arg2 (by decide) (by decide))).trans
        (exit_of_unwritten m (data m) c main_arg2 (by decide) (by decide) (by decide)),
      ((h c).2 main_arg3 (Pipeline.mem_restRefs_of main_arg3 (by decide) (by decide))).trans
        (exit_of_unwritten m (data m) c main_arg3 (by decide) (by decide) (by decide)),
      ((h c).2 main_arg4 (Pipeline.mem_restRefs_of main_arg4 (by decide) (by decide))).trans
        (exit_of_unwritten m (data m) c main_arg4 (by decide) (by decide) (by decide)),
      ((h c).2 main_arg5 (Pipeline.mem_restRefs_of main_arg5 (by decide) (by decide))).trans
        (exit_of_unwritten m (data m) c main_arg5 (by decide) (by decide) (by decide)),
      ((h c).2 main_arg6 (Pipeline.mem_restRefs_of main_arg6 (by decide) (by decide))).trans
        (exit_of_unwritten m (data m) c main_arg6 (by decide) (by decide) (by decide)),
      ((h c).2 main_arg7 (Pipeline.mem_restRefs_of main_arg7 (by decide) (by decide))).trans
        (exit_of_unwritten m (data m) c main_arg7 (by decide) (by decide) (by decide)),
      ((h c).2 main_arg8 (Pipeline.mem_restRefs_of main_arg8 (by decide) (by decide))).trans
        (exit_of_unwritten m (data m) c main_arg8 (by decide) (by decide) (by decide))⟩) (run_main m ρ)

end Cert.Kernel.Around

end
-- ==== Proof.IdealAround.lean ====
/-
  @main of the program is seventeen host operations, one pipelined region, one host operation.

  The host operations before the region prepare the region's operands from the arguments: the two sequences re-laid
  as 16384 × 512 matrices, each of the six weight matrices transposed (and cast, which changes no number at the ideal
  instance), three of the transposes set side by side as a 512 × 1536 matrix and two as a 512 × 1024 one, the bias
  re-laid as a 1 × 512 row. The one after it re-lays the region's 16384 × 512 result as 256 × 64 × 512.

  Stated here: what every buffer holds when the region is entered (the host operations' composed result on the
  launch contents); that @main is "those lines, the region, that line"; that the lines allocate nothing, touch
  only TensorCore buffers, and that the last line writes no array the region stages; and that no line, before or
  after, writes an argument array — each argument is found, and left, as launched.
-/
import proofs.«126726_j19524921328134_2_alg».proof.Proof.Gen.KernelIdeal.Launch
import proofs.«126726_j19524921328134_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents at region entry -/

/-- Every TensorCore buffer of core `c` when the region is entered: the launch contents after the seventeen host
    operations. -/
abbrev entryAll (c : Dev nD) : Valuation τ sig (Elt F) := StableHlo.after (List.flatten [hostOps0]) (fun b => m (c, b))

/-- The same, read at one buffer. -/
abbrev entry (c : Dev nD) (b : Ref sig .tc) : Buf (Elt F) ((c : Thread nD τ).loc b) := entryAll m c (Proc.devRef .tc b)

/-! ## The host lines allocate nothing -/

theorem prefix_allocates_nothing : (hostOps0 : List (HloOp τ sig (Elt F))).Forall fun op => op.fresh = ∅ := by
  simp only [List.Forall]; repeat' constructor

theorem suffix_allocates_nothing : (hostOps1 : List (HloOp τ sig (Elt F))).Forall fun op => op.fresh = ∅ := by
  simp only [List.Forall]; repeat' constructor

/-! ## @main is the lines, the region, the line -/

/-- @main reduces to the region entered at `entry` and continued by the last host line. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-! ## The line after the region -/

/-- It touches only arrays of the pipeline and buffers that bypass it. -/
theorem suffix_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- It allocates nothing. -/
theorem suffix_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp suffix_allocates_nothing) op hop

/-- It writes its own result buffer only, which is none of the seven arrays the region stages. -/
theorem suffix_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-! ## No host line writes an argument -/

/-- A buffer none of the seventeen lines before the region writes is found as launched. -/
theorem entry_of_unwritten (c : Dev nD) (b : Ref sig .tc)
    (hb : ∀ y ∈ ([main_v0, main_v1, main_v2, main_v3, main_v4, main_v5, main_v6, main_v7, main_v8, main_v9, main_v10, main_v11,
      main_v12, main_v13, main_v14, main_v15, main_v16] : List (Ref sig .tc)), b ≠ y) :
    entry m c b = m ((c : Thread nD τ).loc b) := by
  refine StableHlo.after_of_forall_not_mem (b := Proc.devRef .tc b) _ _ (List.forall_iff_forall_mem.mp ?_)
  simp only [hostOps0, List.flatten_cons, List.flatten_nil, List.append_nil, List.cons_append, List.nil_append, List.Forall,
    StableHlo.unary_writes, StableHlo.binary_writes, StableHlo.reshape_writes, StableHlo.nary_writes, Finset.mem_singleton]
  simp only [List.mem_cons, List.mem_nil_iff, or_false, forall_eq_or_imp, forall_eq] at hb
  obtain ⟨h0, h1, h2, h3, h4, h5, h6, h7, h8, h9, h10, h11, h12, h13, h14, h15, h16⟩ := hb
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12, StableHlo.devRef_ne_of_ne h13, StableHlo.devRef_ne_of_ne h14, StableHlo.devRef_ne_of_ne h15,
    StableHlo.devRef_ne_of_ne h16⟩

/-- A buffer that is no array of the pipeline, and that neither the lines before the region nor the line after it
    write, ends as launched. -/
theorem exit_of_unwritten (dats : (p : Fin 1) → (c : Dev nD) → Dat τ (Elt F) Unit ℕ (UR sig nD τ) ℕ (cfgs p) c) (c : Dev nD)
    (b : Ref sig .tc)
    (hb : ∀ y ∈ ([main_v0, main_v1, main_v2, main_v3, main_v4, main_v5, main_v6, main_v7, main_v8, main_v9, main_v10, main_v11,
      main_v12, main_v13, main_v14, main_v15, main_v16] : List (Ref sig .tc)), b ≠ y)
    (hlast : b ≠ main_v18) (harr : ∀ w, Pipeline.arrRef spec0 w ≠ b) :
    Pipeline.afterTail₀ cfgs dats 0 (entryAll m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.reshape_writes, Finset.mem_singleton]
      exact StableHlo.devRef_ne_of_ne hlast)),
    Pipeline.withArrays_of_ne _ c (entryAll m c) _ b harr]
  exact entry_of_unwritten m c b hb

end Cert.KernelIdeal.Around

end
-- ==== Proof.IdealBody.lean ====
/-
  The kernel body at one grid point, as a triple.

  The body reads six whole staging blocks — a 512 × 512 block of each sequence, the 512 × 1536 and 512 × 1024
  matrices of transposed weights set side by side, the 512 × 512 transposed matrix of the candidate, the 1 × 512
  bias row —, reads (and ignores) what its output block held, computes, and stores ONE 512 × 512 value over the
  whole output block. So after the body the six input blocks are as they were and the output block holds that one
  value: a function of the six blocks alone, whatever the output block held before.
-/
import proofs.«126726_j19524921328134_2_alg».proof.Proof.Gen.KernelIdeal.Launch
import proofs.«126726_j19524921328134_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each a whole block -/

abbrev sq : Rect S512x512 := Rect.unit (s := S512x512) ![0, 0] S512x512.size inb_S512x512_S512x512_0_0
abbrev wide3 : Rect S512x1536 := Rect.unit (s := S512x1536) ![0, 0] S512x1536.size inb_S512x1536_S512x1536_0_0
abbrev wide2 : Rect S512x1024 := Rect.unit (s := S512x1024) ![0, 0] S512x1024.size inb_S512x1024_S512x1024_0_0
abbrev flat : Rect S1x512 := Rect.unit (s := S1x512) ![0, 0] S1x512.size inb_S1x512_S1x512_0_0

/-! ## What the body stores -/

/-- The stored value as a function of the six values loaded: the block of x, the block of y, the three transposed
    weights of the y side, the two of the x side, the candidate's, the bias row. -/
abbrev stored (x0 y0 : Vec F S512x512 .f32) (wy : Vec F S512x1536 .bf16) (ux : Vec F S512x1024 .bf16)
    (ug : Vec F S512x512 .bf16) (bv : Vec F S1x512 .f32) : FVec F S512x512 .f32 :=
  k0_pay1 (k0_pay2 x0) (k0_pay3 ug) (k0_pay6 y0 wy) (k0_pay7 x0 y0 wy ux) (k0_pay8 x0 y0 wy ux bv)

/-- The output block after the body: its one store, over the whole block, of the stored value of the blocks read. -/
def outBlock (x0 y0 : Vec F S512x512 .f32) (wy : Vec F S512x1536 .bf16) (ux : Vec F S512x1024 .bf16)
    (ug : Vec F S512x512 .bf16) (bv : Vec F S1x512 .f32) : Vec F S512x512 .f32 :=
  View.canon [⟨sq, stored (View.ld x0 sq) (View.ld y0 sq) (View.ld wy wide3) (View.ld ux wide2) (View.ld ug sq) (View.ld bv flat)⟩]

/-- The one store covers the block. -/
theorem store_covers (p0 : Vec F S512x512 .f32) (y : S512x512.Idx) :
    ∃ pc ∈ ([⟨sq, p0⟩] : List (View.Piece (Elt F) S512x512 .f32)), y ∈ pc.1.set :=
  View.cover_of_tiled [⟨sq, p0⟩] S512x512.size (by rfl) y

/-! ## The triple -/

set_option maxHeartbeats 1000000 in
/-- On whole staging buffers, the six inputs' at contents read and the output's at anything, the body runs to its
    continuation with the inputs' as they were and the output's at `outBlock` of the inputs'. -/
theorem body_triple (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x1536 .bf16) (harg3 : arg3.IsWhole) (arg4 : Memref sig .tc .vmem S512x1024 .bf16) (harg4 : arg4.IsWhole)
    (arg5 : Memref sig .tc .vmem S512x512 .bf16) (harg5 : arg5.IsWhole) (arg6 : Memref sig .tc .vmem S1x512 .f32) (harg6 : arg6.IsWhole)
    (arg7 : Memref sig .tc .vmem S512x512 .f32) (harg7 : arg7.IsWhole)
    (x0 y0 : Vec F S512x512 .f32) (wy : Vec F S512x1536 .bf16) (ux : Vec F S512x1024 .bf16) (ug : Vec F S512x512 .bf16) (bv : Vec F S1x512 .f32)
    (K : PUnit → sProp 𝕄) :
    iprop(owns (c : Thread nD τ) arg1 fullShare x0 ∗ owns (c : Thread nD τ) arg2 fullShare y0 ∗ owns (c : Thread nD τ) arg3 fullShare wy
        ∗ owns (c : Thread nD τ) arg4 fullShare ux ∗ owns (c : Thread nD τ) arg5 fullShare ug ∗ owns (c : Thread nD τ) arg6 fullShare bv
        ∗ (∃ d, owns (c : Thread nD τ) arg7 fullShare d)
        ∗ (iprop(owns (c : Thread nD τ) arg1 fullShare x0 ∗ owns (c : Thread nD τ) arg2 fullShare y0 ∗ owns (c : Thread nD τ) arg3 fullShare wy
            ∗ owns (c : Thread nD τ) arg4 fullShare ux ∗ owns (c : Thread nD τ) arg5 fullShare ug ∗ owns (c : Thread nD τ) arg6 fullShare bv
            ∗ owns (c : Thread nD τ) arg7 fullShare (outBlock x0 y0 wy ux ug bv)) -∗ K ⟨⟩))
      ⊢ wp frame (wpE (defs₀ (F := F)) Variants.none c none) E
          (cc0__gru_kernel i arg1 harg1 arg2 harg2 arg3 harg3 arg4 harg4 arg5 harg5 arg6 harg6 arg7 harg7) K := by
  simp only [cc0__gru_kernel_eq_skeleton]; unfold cc0__gru_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (store_covers _)

end Cert.KernelIdeal.Around

end
-- ==== Proof.IdealRun.lean ====
/-
  The pipelined region, point by point, and the run of @main.

  The grid has 32 points; point t works on rows 512·t … 512·t + 511 of the two re-laid sequences and of the result,
  and on the WHOLE of the three weight matrices and of the bias row (their block index never moves, so they are
  fetched once, at the first point, and found in place afterwards). The proof data of the pipeline: each staged
  array as the region finds it; after the body at point t, each input's staging block at its array's block there and
  the output's at the body's stored value of those six blocks. With the body's triple this is the body's obligation
  at every point, and the library's frame run around a region gives: every weakly fair execution of @main ends, with
  every array of the pipeline at what the proof data computes and every other buffer as the last host line leaves it —
  in particular each argument array, which no line writes, as launched.
-/
import proofs.«126726_j19524921328134_2_alg».proof.Proof.IdealAround
import proofs.«126726_j19524921328134_2_alg».proof.Proof.IdealBody

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the proof data -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The proof data on core `c`: the arrays as found; after the body at point `t` the six inputs' blocks in place and the
    output's block at the stored value of those; the invariant the scoped rest and the generator register, untouched;
    full shares; nothing owed. -/
def data (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => outBlock (blockAt m c 0 t) (blockAt m c 1 t) (blockAt m c 2 t) (blockAt m c 3 t) (blockAt m c 4 t) (blockAt m c 5 t)
  Φ _ := Pipeline.ΦA spec0 c
  q _ := fullShare
  owed _ := 0

theorem array_eq (c : Dev nD) (w : Fin cfg0.W) : (data m 0 c).A w = entry m c (Pipeline.arrRef spec0 w) := by
  dsimp only [data]

theorem left0 (c : Dev nD) (t : Fin cfg0.N) : (data m 0 c).after 0 t = blockAt m c 0 t := by dsimp only [data]
theorem left1 (c : Dev nD) (t : Fin cfg0.N) : (data m 0 c).after 1 t = blockAt m c 1 t := by dsimp only [data]
theorem left2 (c : Dev nD) (t : Fin cfg0.N) : (data m 0 c).after 2 t = blockAt m c 2 t := by dsimp only [data]
theorem left3 (c : Dev nD) (t : Fin cfg0.N) : (data m 0 c).after 3 t = blockAt m c 3 t := by dsimp only [data]
theorem left4 (c : Dev nD) (t : Fin cfg0.N) : (data m 0 c).after 4 t = blockAt m c 4 t := by dsimp only [data]
theorem left5 (c : Dev nD) (t : Fin cfg0.N) : (data m 0 c).after 5 t = blockAt m c 5 t := by dsimp only [data]
theorem left6 (c : Dev nD) (t : Fin cfg0.N) : (data m 0 c).after 6 t
    = outBlock (blockAt m c 0 t) (blockAt m c 1 t) (blockAt m c 2 t) (blockAt m c 3 t) (blockAt m c 4 t) (blockAt m c 5 t) := by
  dsimp only [data]

/-! ## Each input's staging block holds its array's block at every point, fetched there or not -/

theorem found0 (c : Dev nD) (t : Fin cfg0.N) (d) : (data m 0 c).before 0 t d = blockAt m c 0 t :=
  ((data m 0 c).before_in_eq_fetched 0 rfl (fun _ => rfl) (fun _ _ _ => rfl)
    (fun t => by rw [left0]; unfold Dat.blockOf blockAt; rw [array_eq]; try rfl) t d).trans
    (by unfold Dat.fetched Dat.blockOf blockAt; rw [array_eq]; try rfl)
theorem found1 (c : Dev nD) (t : Fin cfg0.N) (d) : (data m 0 c).before 1 t d = blockAt m c 1 t :=
  ((data m 0 c).before_in_eq_fetched 1 rfl (fun _ => rfl) (fun _ _ _ => rfl)
    (fun t => by rw [left1]; unfold Dat.blockOf blockAt; rw [array_eq]; try rfl) t d).trans
    (by unfold Dat.fetched Dat.blockOf blockAt; rw [array_eq]; try rfl)
theorem found2 (c : Dev nD) (t : Fin cfg0.N) (d) : (data m 0 c).before 2 t d = blockAt m c 2 t :=
  ((data m 0 c).before_in_eq_fetched 2 rfl (fun _ => rfl) (fun _ _ _ => rfl)
    (fun t => by rw [left2]; unfold Dat.blockOf blockAt; rw [array_eq]; try rfl) t d).trans
    (by unfold Dat.fetched Dat.blockOf blockAt; rw [array_eq]; try rfl)
theorem found3 (c : Dev nD) (t : Fin cfg0.N) (d) : (data m 0 c).before 3 t d = blockAt m c 3 t :=
  ((data m 0 c).before_in_eq_fetched 3 rfl (fun _ => rfl) (fun _ _ _ => rfl)
    (fun t => by rw [left3]; unfold Dat.blockOf blockAt; rw [array_eq]; try rfl) t d).trans
    (by unfold Dat.fetched Dat.blockOf blockAt; rw [array_eq]; try rfl)
theorem found4 (c : Dev nD) (t : Fin cfg0.N) (d) : (data m 0 c).before 4 t d = blockAt m c 4 t :=
  ((data m 0 c).before_in_eq_fetched 4 rfl (fun _ => rfl) (fun _ _ _ => rfl)
    (fun t => by rw [left4]; unfold Dat.blockOf blockAt; rw [array_eq]; try rfl) t d).trans
    (by unfold Dat.fetched Dat.blockOf blockAt; rw [array_eq]; try rfl)
theorem found5 (c : Dev nD) (t : Fin cfg0.N) (d) : (data m 0 c).before 5 t d = blockAt m c 5 t :=
  ((data m 0 c).before_in_eq_fetched 5 rfl (fun _ => rfl) (fun _ _ _ => rfl)
    (fun t => by rw [left5]; unfold Dat.blockOf blockAt; rw [array_eq]; try rfl) t d).trans
    (by unfold Dat.fetched Dat.blockOf blockAt; rw [array_eq]; try rfl)

/-! ## The body's obligation at a generic point -/

/-- What the body is called with at point `t`. -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d)))

/-- What it returns. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t))

/-- The body at any point: the inputs' buffers hold their blocks, so the triple applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (data m 0 c).Φ t.succ = (data m 0 c).Φ t.castSucc from rfl,
    show (data m 0 c).owesAt () t.succ = (data m 0 c).owesAt () t.castSucc from rfl,
    left0, left1, left2, left3, left4, left5, left6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (data (F := F) m 0 c) (defs₀ (F := F)) Variants.none () Set.univ := fun t => by
  rw [bigSep_W0, bigSep_W0]
  exact body_at m c t

/-! ## The run and the frame -/

set_option backward.isDefEq.respectTransparency.types false in
/-- From any memory with zero counters, every weakly fair execution of @main on the TensorCores terminates, and every
    final state has each array of the pipeline at what the proof data computes and every other unscoped buffer as the last
    host line leaves it. -/
theorem run_main : θ_run defs (onTc (τ := τ) (main (F := F))) (s₀ m ρ)
    (Pipeline.FramePost cfgs (data m) 0 (Pipeline.afterTail₀ cfgs (data m) 0 (entryAll m) [hostOps1])) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := entryAll m) (opss := [hostOps1]) (hsub := suffix_within) (hfresh := suffix_fresh)
    (hkeep := suffix_keeps_arrays) (hmain := main_around m Variants.none) (hA := array_eq m) (hΦ := fun _ _ => rfl)

/-- The frame: @main runs to the end, faults nowhere, and leaves each of its nine argument arrays as launched — none is
    an array of the pipeline, and no host line, before or after the region, writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_arg0 (Pipeline.mem_restRefs_of main_arg0 (by decide) (by decide))).trans
        (exit_of_unwritten m (data m) c main_arg0 (by decide) (by decide) (by decide)),
      ((h c).2 main_arg1 (Pipeline.mem_restRefs_of main_arg1 (by decide) (by decide))).trans
        (exit_of_unwritten m (data m) c main_arg1 (by decide) (by decide) (by decide)),
      ((h c).2 main_arg2 (Pipeline.mem_restRefs_of main_arg2 (by decide) (by decide))).trans
        (exit_of_unwritten m (data m) c main_arg2 (by decide) (by decide) (by decide)),
      ((h c).2 main_arg3 (Pipeline.mem_restRefs_of main_arg3 (by decide) (by decide))).trans
        (exit_of_unwritten m (data m) c main_arg3 (by decide) (by decide) (by decide)),
      ((h c).2 main_arg4 (Pipeline.mem_restRefs_of main_arg4 (by decide) (by decide))).trans
        (exit_of_unwritten m (data m) c main_arg4 (by decide) (by decide) (by decide)),
      ((h c).2 main_arg5 (Pipeline.mem_restRefs_of main_arg5 (by decide) (by decide))).trans
        (exit_of_unwritten m (data m) c main_arg5 (by decide) (by decide) (by decide)),
      ((h c).2 main_arg6 (Pipeline.mem_restRefs_of main_arg6 (by decide) (by decide))).trans
        (exit_of_unwritten m (data m) c main_arg6 (by decide) (by decide) (by decide)),
      ((h c).2 main_arg7 (Pipeline.mem_restRefs_of main_arg7 (by decide) (by decide))).trans
        (exit_of_unwritten m (data m) c main_arg7 (by decide) (by decide) (by decide)),
      ((h c).2 main_arg8 (Pipeline.mem_restRefs_of main_arg8 (by decide) (by decide))).trans
        (exit_of_unwritten m (data m) c main_arg8 (by decide) (by decide) (by decide))⟩) (run_main m ρ)

end Cert.KernelIdeal.Around

end
-- ==== Proof.GatingUnit.lean ====
/-
  The gating unit as ONE function of the argument arrays, index by index, on the extended reals.

  The arguments: two sequences x, y of 256 × 64 rows of 512 numbers, six 512 × 512 matrices and a bias of 512 numbers.
  The unit works row by row. For ONE row ξ of x and the same row η of y, an output coordinate e, matrices read as
  W e k (row e, column k), with  ⟨s, W⟩ e = Σ_k s k · W e k  and  σ v = 1 / (1 + e^(−v)):

    r e = σ ( ⟨η, Wr⟩ e + ⟨ξ, Ur⟩ e )                     the reset gate
    z e = σ ( (⟨η, Wz⟩ e + ⟨ξ, Uz⟩ e) − bg e )             the update gate
    h e = tanh ( ⟨η, Wg⟩ e + Σ_k (r k · ξ k) · Ug e k )     the candidate, which reads the WHOLE row of r
    g e = (1 − z e) · ξ e + z e · h e

  Every sum is a sum of products in one fixed order of the factors, and nothing is distributed or cancelled, so the
  function is the same on infinite entries as on finite ones.
-/
import Idealize.ShloMosaic.PureOps.Ideal
import Idealize.ShloMosaic.Lib.ValueIdx

noncomputable section

namespace Cert.GatingUnit

open Idealize.ShloMosaic Idealize.ShloMosaic.ValueIdx

/-- The number the float word of `1.0` denotes (it is 1; kept as the word so that both programs' text meets it unevaluated). -/
def one : EReal := Ideal.ofBits .f32 0x3F800000#32

/-- σ v = 1 / (1 + e^(−v)). -/
def logistic (v : EReal) : EReal := Ideal.div one (one + Ideal.exp (-v))

/-! ## One row -/

/-- A row of 512 numbers. -/
abbrev Row := Fin 512 → EReal
/-- A 512 × 512 matrix read as row e, column k. -/
abbrev Grid := Fin 512 → Fin 512 → EReal

/-- ⟨s, W⟩ e = Σ_k s k · W e k. -/
def against (s : Row) (W : Grid) (e : Fin 512) : EReal := ∑ k : Fin 512, s k * W e k

/-- The reset gate of a row. -/
def resetRow (ξ η : Row) (Wr Ur : Grid) (e : Fin 512) : EReal :=
  logistic (against η Wr e + against ξ Ur e)

/-- The update gate of a row. -/
def updateRow (ξ η : Row) (Wz Uz : Grid) (bg : Row) (e : Fin 512) : EReal :=
  logistic ((against η Wz e + against ξ Uz e) - bg e)

/-- The candidate of a row. -/
def candidateRow (ξ η : Row) (Wr Ur Wg Ug : Grid) (e : Fin 512) : EReal :=
  Ideal.tanh (against η Wg e + ∑ k : Fin 512, (resetRow ξ η Wr Ur k * ξ k) * Ug e k)

/-- The unit's result on a row. -/
def gatedRow (ξ η : Row) (Wr Ur Wz Uz Wg Ug : Grid) (bg : Row) (e : Fin 512) : EReal :=
  (one - updateRow ξ η Wz Uz bg e) * ξ e + updateRow ξ η Wz Uz bg e * candidateRow ξ η Wr Ur Wg Ug e

/-! ## The arrays -/

/-- A sequence: 256 × 64 rows of 512 extended reals. -/
abbrev Seq := (⟨3, ![256, 64, 512]⟩ : Shape).Idx → EReal
/-- A 512 × 512 matrix as an array. -/
abbrev Mat := (⟨2, ![512, 512]⟩ : Shape).Idx → EReal
/-- A bias of 512 entries as an array. -/
abbrev Bias := (⟨1, ![512]⟩ : Shape).Idx → EReal

/-- Row (t, b) of a sequence. -/
def rowOf (s : Seq) (t : Fin 256) (b : Fin 64) : Row := fun k => s (ix3 t b k)
/-- A matrix array read as row e, column k. -/
def gridOf (W : Mat) : Grid := fun e k => W (ix2 e k)
/-- A bias array as a row. -/
def biasOf (bg : Bias) : Row := fun e => bg (ix1 e)

/-- The unit's result as an array: at (t, b, e), the row function of row (t, b) of x and of y at e. -/
def result (x y : Seq) (Wr Ur Wz Uz Wg Ug : Mat) (bg : Bias) : Seq :=
  fun i => gatedRow (rowOf x (i 0) (i 1)) (rowOf y (i 0) (i 1)) (gridOf Wr) (gridOf Ur) (gridOf Wz) (gridOf Uz)
    (gridOf Wg) (gridOf Ug) (biasOf bg) (i 2)

end Cert.GatingUnit

end
-- ==== Proof.LibLogistic.lean ====
/-
  The logistic function in its two spellings, on the extended reals.

  On a real v,  1/2 · (1 + tanh (v/2)) = 1 / (1 + e^(−v)):  with a = e^(v/2) and b = e^(−v/2), a·b = 1 and e^(−v) = b²,
  so the left side is a/(a+b) and the right side 1/(1+b²) = a·b/(a·b + b²) = a/(a+b).
  At +∞ both sides are 1 (tanh is 1 there; e^(−∞) = 0), at −∞ both are 0 (tanh is −1; 1/(1+∞) = 1·∞⁻¹ = 0).
  So the two spellings are one function of an extended real, with no finiteness assumed.
-/
import Idealize.ShloMosaic.PureOps.Ideal

noncomputable section

namespace Cert.LibLogistic

open Idealize.ShloMosaic

/-- The float word of `1.0` denotes 1. -/
theorem word_one : Ideal.ofBits .f32 0x3F800000#32 = 1 := by
  simp [Ideal.ofBits, Ideal.ieee, -EReal.coe_mul]; norm_num

/-- The float word of `0.5` denotes the real 1/2. -/
theorem word_half : Ideal.ofBits .f32 0x3F000000#32 = ((1 / 2 : ℝ) : EReal) := by
  simp [Ideal.ofBits, Ideal.ieee, -EReal.coe_mul]; norm_num

/-- On the reals: 1/2 · (1 + tanh (v/2)) = 1 / (1 + e^(−v)). -/
theorem real_half_tanh (v : ℝ) : 1 / 2 * (1 + Real.tanh (1 / 2 * v)) = 1 / (1 + Real.exp (-v)) := by
  have ha : 0 < Real.exp (1 / 2 * v) := Real.exp_pos _
  have hb : 0 < Real.exp (-(1 / 2 * v)) := Real.exp_pos _
  have hab : Real.exp (1 / 2 * v) * Real.exp (-(1 / 2 * v)) = 1 := by
    rw [← Real.exp_add]; simp
  have hbb : Real.exp (-v) = Real.exp (-(1 / 2 * v)) * Real.exp (-(1 / 2 * v)) := by
    rw [← Real.exp_add]; congr 1; ring
  rw [Real.tanh_eq_sinh_div_cosh, Real.sinh_eq, Real.cosh_eq, hbb]
  set a := Real.exp (1 / 2 * v)
  set b := Real.exp (-(1 / 2 * v))
  have hs : a + b ≠ 0 := (add_pos ha hb).ne'
  have hq : 1 + b * b ≠ 0 := (add_pos one_pos (mul_pos hb hb)).ne'
  field_simp
  linear_combination (2 * b) * hab

/-- On the extended reals, at the conventions of the ideal instance (tanh ±∞ = ±1, e^(−∞) = 0, e^(+∞) = +∞,
    x / y = x · y⁻¹ off zero with ∞⁻¹ = 0):  1/2 · (1 + tanh (1/2 · v)) = 1 / (1 + e^(−v)) for EVERY v. -/
theorem half_tanh (v : EReal) :
    ((1 / 2 : ℝ) : EReal) * (1 + Ideal.tanh (((1 / 2 : ℝ) : EReal) * v)) = Ideal.div 1 (1 + Ideal.exp (-v)) := by
  induction v using EReal.rec with
  | bot =>
    have h1 : ((1 / 2 : ℝ) : EReal) * ⊥ = ⊥ := EReal.coe_mul_bot_of_pos (by norm_num)
    rw [h1, Ideal.tanh_bot, EReal.neg_bot, Ideal.exp_top]
    have h2 : (1 : EReal) + ⊤ = ⊤ := EReal.add_top_of_ne_bot (by decide)
    rw [h2, Ideal.div, if_neg (by decide), EReal.inv_top, mul_zero]
    have h3 : (1 : EReal) + -1 = 0 := by
      have h : ((1 : ℝ) : EReal) + ((-1 : ℝ) : EReal) = ((0 : ℝ) : EReal) := by rw [← EReal.coe_add]; norm_num
      simpa using h
    rw [h3, mul_zero]
  | top =>
    have h1 : ((1 / 2 : ℝ) : EReal) * ⊤ = ⊤ := EReal.coe_mul_top_of_pos (by norm_num)
    rw [h1, Ideal.tanh_top, EReal.neg_top, Ideal.exp_bot, add_zero, Ideal.div, if_neg (by norm_num), inv_one, mul_one]
    have h4 : ((1 / 2 : ℝ) : EReal) * (1 + 1) = ((1 : ℝ) : EReal) := by
      rw [show (1 : EReal) + 1 = ((2 : ℝ) : EReal) by norm_cast, ← EReal.coe_mul]; norm_num
    simpa using h4
  | coe r =>
    have hy : (1 + Real.exp (-r)) ≠ 0 := (add_pos one_pos (Real.exp_pos _)).ne'
    rw [← EReal.coe_mul, Ideal.tanh_coe, ← EReal.coe_neg, Ideal.exp_coe]
    have e1 : (1 : EReal) + ((Real.tanh (1 / 2 * r) : ℝ) : EReal) = ((1 + Real.tanh (1 / 2 * r) : ℝ) : EReal) := by norm_cast
    have e2 : (1 : EReal) + ((Real.exp (-r) : ℝ) : EReal) = ((1 + Real.exp (-r) : ℝ) : EReal) := by norm_cast
    rw [e1, e2, Ideal.div_coe hy, one_mul, ← EReal.coe_mul, real_half_tanh]

end Cert.LibLogistic

end
-- ==== Proof.BlockRow.lean ====
/-
  The value the kernel body stores, read at one row.

  The body loads a 512 × 512 block of x and of y, the matrices [Wrᵀ | Wzᵀ | Wgᵀ] (512 × 1536), [Urᵀ | Uzᵀ] (512 × 1024),
  Ugᵀ (512 × 512) and the bias (1 × 512), and stores one 512 × 512 value. At (p, q) that value depends on row p of the
  two blocks only: a matrix product into a zero accumulator is, at (p, c), the sum over k of lhs (p, k) · rhs (k, c);
  a cut of 512 columns from column c₀ reads column c₀ + q; the casts change nothing; the bias row is copied down the rows.
  Each gate is spelt 1/2 · (1 + tanh (1/2 · v)), which is the logistic function of v on every extended real.
-/
import proofs.«126726_j19524921328134_2_alg».proof.Proof.Gen.KernelIdeal.Skeleton
import proofs.«126726_j19524921328134_2_alg».proof.Proof.GatingUnit
import proofs.«126726_j19524921328134_2_alg».proof.Proof.LibLogistic
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.BlockRow

open Cert.KernelIdeal Cert.KernelIdeal.Gen Idealize.ShloMosaic Idealize.ShloMosaic.ValueIdx Idealize.SL.Sem

/-! ## A matrix product into the zero accumulator, at an index -/

theorem matmul_1536_l0 (i : S512x1536.Idx) (q : dot_S512x512_S512x1536_S512x1536_1_0_0_1_n_n.contr.Idx) :
    (dot_S512x512_S512x1536_S512x1536_1_0_0_1_n_n.lhsIdx i q 0).val = (i 0).val := by
  unfold DotDims.lhsIdx
  rw [dif_neg (show ¬(0 : Fin S512x512.rank) ∈ dot_S512x512_S512x1536_S512x1536_1_0_0_1_n_n.lhsBatch by decide), dif_pos (show (0 : Fin S512x512.rank) ∈ dot_S512x512_S512x1536_S512x1536_1_0_0_1_n_n.lhsNonContracting by decide)]
  rfl
theorem matmul_1536_l1 (i : S512x1536.Idx) (q : dot_S512x512_S512x1536_S512x1536_1_0_0_1_n_n.contr.Idx) :
    (dot_S512x512_S512x1536_S512x1536_1_0_0_1_n_n.lhsIdx i q 1).val = (q ⟨0, by decide⟩).val :=
  dot_S512x512_S512x1536_S512x1536_1_0_0_1_n_n.lhsIdx_val_of_single rfl i q
theorem matmul_1536_r0 (i : S512x1536.Idx) (q : dot_S512x512_S512x1536_S512x1536_1_0_0_1_n_n.contr.Idx) :
    (dot_S512x512_S512x1536_S512x1536_1_0_0_1_n_n.rhsIdx i q 0).val = (q ⟨0, by decide⟩).val :=
  dot_S512x512_S512x1536_S512x1536_1_0_0_1_n_n.rhsIdx_val_of_single rfl i q
theorem matmul_1536_r1 (i : S512x1536.Idx) (q : dot_S512x512_S512x1536_S512x1536_1_0_0_1_n_n.contr.Idx) :
    (dot_S512x512_S512x1536_S512x1536_1_0_0_1_n_n.rhsIdx i q 1).val = (i 1).val := by
  unfold DotDims.rhsIdx
  rw [dif_neg (show ¬(1 : Fin S512x1536.rank) ∈ dot_S512x512_S512x1536_S512x1536_1_0_0_1_n_n.rhsBatch by decide), dif_pos (show (1 : Fin S512x1536.rank) ∈ dot_S512x512_S512x1536_S512x1536_1_0_0_1_n_n.rhsNonContracting by decide)]
  rfl

/-- A 512 × 512 by 512 × 1536 product into zero: at (p, c), the sum over k of a (p, k) · b (k, c). -/
theorem matmul_1536 (a : FVec Ideal S512x512 .bf16) (b : FVec Ideal S512x1536 .bf16) (p : Fin 512) (c : Fin 1536) :
    matmul (F := Ideal) dot_S512x512_S512x1536_S512x1536_1_0_0_1_n_n none a b (constant (F := Ideal) S512x1536 .f32 0x00000000#32) (ix2 p c)
      = ∑ k : Fin 512, a (ix2 p k) * b (ix2 k c) := by
  simp only [matmul]
  rw [Ideal.matmul_constant_zero_apply, ← Equiv.sum_comp (contrEquiv1 dot_S512x512_S512x1536_S512x1536_1_0_0_1_n_n 512 rfl rfl).symm]
  refine Finset.sum_congr rfl fun k _ => ?_
  have hk := contrEquiv1_symm_val dot_S512x512_S512x1536_S512x1536_1_0_0_1_n_n 512 rfl rfl k
  have el : dot_S512x512_S512x1536_S512x1536_1_0_0_1_n_n.lhsIdx (ix2 p c) ((contrEquiv1 dot_S512x512_S512x1536_S512x1536_1_0_0_1_n_n 512 rfl rfl).symm k) = ix2 p k := funext fun x => Fin.ext (by
    match x with
    | ⟨0, _⟩ => exact matmul_1536_l0 _ _
    | ⟨1, _⟩ => exact (matmul_1536_l1 _ _).trans hk)
  have er : dot_S512x512_S512x1536_S512x1536_1_0_0_1_n_n.rhsIdx (ix2 p c) ((contrEquiv1 dot_S512x512_S512x1536_S512x1536_1_0_0_1_n_n 512 rfl rfl).symm k) = ix2 k c := funext fun x => Fin.ext (by
    match x with
    | ⟨0, _⟩ => exact (matmul_1536_r0 _ _).trans hk
    | ⟨1, _⟩ => exact matmul_1536_r1 _ _)
  rw [el, er]

theorem matmul_1024_l0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem matmul_1024_l1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem matmul_1024_r0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem matmul_1024_r1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- A 512 × 512 by 512 × 1024 product into zero: at (p, c), the sum over k of a (p, k) · b (k, c). -/
theorem matmul_1024 (a : FVec Ideal S512x512 .bf16) (b : FVec Ideal S512x1024 .bf16) (p : Fin 512) (c : Fin 1024) :
    matmul (F := Ideal) dot_S512x512_S512x1024_S512x1024_1_0_0_1_n_n none a b (constant (F := Ideal) S512x1024 .f32 0x00000000#32) (ix2 p c)
      = ∑ k : Fin 512, a (ix2 p k) * b (ix2 k c) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p c) ((contrEquiv1 dot_S512x512_S512x1024_S512x1024_1_0_0_1_n_n 512 rfl rfl).symm k) = ix2 p k := funext fun x => Fin.ext (by
    match x with
    | ⟨0, _⟩ => exact matmul_1024_l0 _ _
    | ⟨1, _⟩ => exact (matmul_1024_l1 _ _).trans hk)
  have er : dot_S512x512_S512x1024_S512x1024_1_0_0_1_n_n.rhsIdx (ix2 p c) ((contrEquiv1 dot_S512x512_S512x1024_S512x1024_1_0_0_1_n_n 512 rfl rfl).symm k) = ix2 k c := funext fun x => Fin.ext (by
    match x with
    | ⟨0, _⟩ => exact (matmul_1024_r0 _ _).trans hk
    | ⟨1, _⟩ => exact matmul_1024_r1 _ _)
  rw [el, er]

theorem matmul_512_l0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem matmul_512_l1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem matmul_512_r0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem matmul_512_r1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A 512 × 512 by 512 × 512 product into zero: at (p, c), the sum over k of a (p, k) · b (k, c). -/
theorem matmul_512 (a : FVec Ideal S512x512 .bf16) (b : FVec Ideal S512x512 .bf16) (p : Fin 512) (c : Fin 512) :
    matmul (F := Ideal) dot_S512x512_S512x512_S512x512_1_0_0_1_n_n none a b (constant (F := Ideal) S512x512 .f32 0x00000000#32) (ix2 p c)
      = ∑ k : Fin 512, a (ix2 p k) * b (ix2 k c) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p c) ((contrEquiv1 dot_S512x512_S512x512_S512x512_1_0_0_1_n_n 512 rfl rfl).symm k) = ix2 p k := funext fun x => Fin.ext (by
    match x with
    | ⟨0, _⟩ => exact matmul_512_l0 _ _
    | ⟨1, _⟩ => exact (matmul_512_l1 _ _).trans hk)
  have er : dot_S512x512_S512x512_S512x512_1_0_0_1_n_n.rhsIdx (ix2 p c) ((contrEquiv1 dot_S512x512_S512x512_S512x512_1_0_0_1_n_n 512 rfl rfl).symm k) = ix2 k c := funext fun x => Fin.ext (by
    match x with
    | ⟨0, _⟩ => exact (matmul_512_r0 _ _).trans hk
    | ⟨1, _⟩ => exact matmul_512_r1 _ _)
  rw [el, er]

/-! ## The body's intermediate values at an index -/

/-- The block of x, cast to its own shape, is itself. -/
theorem pay2_eq (x0 : Vec Ideal S512x512 .f32) : k0_pay2 (F := Ideal) x0 = x0 := by
  unfold k0_pay2
  exact shapeCast_self _ _

/-- The matrix Ugᵀ, cast to its own shape, is itself. -/
theorem pay3_eq (ug : Vec Ideal S512x512 .bf16) : k0_pay3 (F := Ideal) ug = ug := by
  unfold k0_pay3
  exact shapeCast_self _ _

/-- The wide product of y's block: at (p, c), row p of y against column c of [Wrᵀ | Wzᵀ | Wgᵀ]. -/
theorem pay4_apply (y0 : Vec Ideal S512x512 .f32) (wy : Vec Ideal S512x1536 .bf16) (p : Fin 512) (c : Fin 1536) :
    k0_pay4 (F := Ideal) y0 wy (ix2 p c) = ∑ k : Fin 512, y0 (ix2 p k) * wy (ix2 k c) := by
  unfold k0_pay4
  rw [shapeCast_self, shapeCast_self]
  exact matmul_1536 _ _ p c

/-- The wide product of x's block: at (p, c), row p of x against column c of [Urᵀ | Uzᵀ]. -/
theorem pay5_apply (x0 : Vec Ideal S512x512 .f32) (ux : Vec Ideal S512x1024 .bf16) (p : Fin 512) (c : Fin 1024) :
    k0_pay5 (F := Ideal) x0 ux (ix2 p c) = ∑ k : Fin 512, x0 (ix2 p k) * ux (ix2 k c) := by
  unfold k0_pay5
  rw [pay2_eq, shapeCast_self]
  exact matmul_1024 _ _ p c

/-- The third column group of y's product: at (p, q), row p of y against column 1024 + q. -/
theorem pay6_apply (y0 : Vec Ideal S512x512 .f32) (wy : Vec Ideal S512x1536 .bf16) (p q : Fin 512) :
    k0_pay6 (F := Ideal) y0 wy (ix2 p q)
      = ∑ k : Fin 512, y0 (ix2 p k) * wy (ix2 k ⟨1024 + q.val, by have := q.isLt; omega⟩) := by
  unfold k0_pay6
  refine (slice2_axis1_apply 1024 _ _ p q ⟨1024 + q.val, by have := q.isLt; omega⟩ rfl).trans ?_
  exact pay4_apply y0 wy p _

/-! ## The gates -/

/-- The kernel's spelling of a gate, 1/2 · (1 + tanh (1/2 · v)) with the float words for 1/2 and 1, is the logistic function of v. -/
theorem gate_eq (v : EReal) :
    Ideal.ofBits .f32 0x3F000000#32 * (Ideal.ofBits .f32 0x3F800000#32 + Ideal.tanh (Ideal.ofBits .f32 0x3F000000#32 * v))
      = Cert.GatingUnit.logistic v := by
  unfold Cert.GatingUnit.logistic Cert.GatingUnit.one
  rw [Cert.LibLogistic.word_half, Cert.LibLogistic.word_one]
  exact Cert.LibLogistic.half_tanh v

/-- The reset gate's value at (p, e): the reset gate of row p of the two blocks at e, for every column e. -/
theorem pay7_apply (x0 y0 : Vec Ideal S512x512 .f32) (wy : Vec Ideal S512x1536 .bf16) (ux : Vec Ideal S512x1024 .bf16)
    (p e : Fin 512) :
    k0_pay7 (F := Ideal) x0 y0 wy ux (ix2 p e)
      = Cert.GatingUnit.resetRow (fun k => x0 (ix2 p k)) (fun k => y0 (ix2 p k))
          (fun e k => wy (ix2 k ⟨e.val, by have := e.isLt; omega⟩))
          (fun e k => ux (ix2 k ⟨e.val, by have := e.isLt; omega⟩)) e := by
  unfold k0_pay7
  show Ideal.ofBits .f32 0x3F000000#32 * (Ideal.ofBits .f32 0x3F800000#32 + Ideal.tanh (Ideal.ofBits .f32 0x3F000000#32 *
      (extractStridedSlice S512x512 ![0, 0] (k0_pay4 (F := Ideal) y0 wy) _ (ix2 p e)
        + extractStridedSlice S512x512 ![0, 0] (k0_pay5 (F := Ideal) x0 ux) _ (ix2 p e)))) = _
  rw [slice2_axis1_apply 0 (k0_pay4 (F := Ideal) y0 wy) _ p e ⟨e.val, by have := e.isLt; omega⟩ (Nat.zero_add _).symm,
    slice2_axis1_apply 0 (k0_pay5 (F := Ideal) x0 ux) _ p e ⟨e.val, by have := e.isLt; omega⟩ (Nat.zero_add _).symm,
    pay4_apply, pay5_apply, gate_eq]
  rfl

/-- The update gate's value at (p, e): the update gate of row p of the two blocks at e. -/
theorem pay8_apply (x0 y0 : Vec Ideal S512x512 .f32) (wy : Vec Ideal S512x1536 .bf16) (ux : Vec Ideal S512x1024 .bf16)
    (bv : Vec Ideal S1x512 .f32) (p e : Fin 512) :
    k0_pay8 (F := Ideal) x0 y0 wy ux bv (ix2 p e)
      = Cert.GatingUnit.updateRow (fun k => x0 (ix2 p k)) (fun k => y0 (ix2 p k))
          (fun e k => wy (ix2 k ⟨512 + e.val, by have := e.isLt; omega⟩))
          (fun e k => ux (ix2 k ⟨512 + e.val, by have := e.isLt; omega⟩))
          (fun e => bv (ix2 0 e)) e := by
  unfold k0_pay8
  show Ideal.ofBits .f32 0x3F000000#32 * (Ideal.ofBits .f32 0x3F800000#32 + Ideal.tanh (Ideal.ofBits .f32 0x3F000000#32 *
      ((extractStridedSlice S512x512 ![0, 512] (k0_pay4 (F := Ideal) y0 wy) _ (ix2 p e)
        + extractStridedSlice S512x512 ![0, 512] (k0_pay5 (F := Ideal) x0 ux) _ (ix2 p e))
        - broadcastTo S512x512 (shapeCast S1x512 bv _) _ (ix2 p e)))) = _
  rw [slice2_axis1_apply 512 (k0_pay4 (F := Ideal) y0 wy) _ p e ⟨512 + e.val, by have := e.isLt; omega⟩ rfl,
    slice2_axis1_apply 512 (k0_pay5 (F := Ideal) x0 ux) _ p e ⟨512 + e.val, by have := e.isLt; omega⟩ rfl,
    broadcastTo_1b_ab_apply, shapeCast_self, pay4_apply, pay5_apply, gate_eq]
  rfl

/-! ## The stored value -/

/-- The stored value at (p, q) from the five values it reads: (1 − z) · x + z · tanh (g + Σ_k (r (p, k) · x (p, k)) · Ugᵀ (k, q)). -/
theorem pay1_apply (v1 : FVec Ideal S512x512 .f32) (v11 : FVec Ideal S512x512 .bf16) (v24 v31 v38 : FVec Ideal S512x512 .f32)
    (p q : Fin 512) :
    k0_pay1 (F := Ideal) v1 v11 v24 v31 v38 (ix2 p q)
      = (Ideal.ofBits .f32 0x3F800000#32 - v38 (ix2 p q)) * v1 (ix2 p q)
        + v38 (ix2 p q) * Ideal.tanh (v24 (ix2 p q) + ∑ k : Fin 512, (v31 (ix2 p k) * v1 (ix2 p k)) * v11 (ix2 k q)) := by
  unfold k0_pay1
  show (Ideal.ofBits .f32 0x3F800000#32 - v38 (ix2 p q)) * v1 (ix2 p q)
      + v38 (ix2 p q) * Ideal.tanh (v24 (ix2 p q)
        + matmul (F := Ideal) dot_S512x512_S512x512_S512x512_1_0_0_1_n_n none (truncf .bf16 (mulf v31 v1) _) v11
            (constant (F := Ideal) S512x512 .f32 0x00000000#32) (ix2 p q)) = _
  rw [matmul_512]
  rfl

/-- The value the body stores, at row p and column q, is the gating unit's row function of row p of the block of x and
    of the block of y, the matrices read by column groups: Wr, Wz, Wg are columns 0.., 512.., 1024.. of the first matrix,
    Ur, Uz columns 0.., 512.. of the second. -/
theorem payload_row (x0 y0 : Vec Ideal S512x512 .f32) (wy : Vec Ideal S512x1536 .bf16) (ux : Vec Ideal S512x1024 .bf16)
    (ug : Vec Ideal S512x512 .bf16) (bv : Vec Ideal S1x512 .f32) (p q : Fin 512) :
    k0_pay1 (F := Ideal) (k0_pay2 x0) (k0_pay3 ug) (k0_pay6 y0 wy) (k0_pay7 x0 y0 wy ux) (k0_pay8 x0 y0 wy ux bv) (ix2 p q)
      = Cert.GatingUnit.gatedRow (fun k => x0 (ix2 p k)) (fun k => y0 (ix2 p k))
          (fun e k => wy (ix2 k ⟨e.val, by have := e.isLt; omega⟩))
          (fun e k => ux (ix2 k ⟨e.val, by have := e.isLt; omega⟩))
          (fun e k => wy (ix2 k ⟨512 + e.val, by have := e.isLt; omega⟩))
          (fun e k => ux (ix2 k ⟨512 + e.val, by have := e.isLt; omega⟩))
          (fun e k => wy (ix2 k ⟨1024 + e.val, by have := e.isLt; omega⟩))
          (fun e k => ug (ix2 k e))
          (fun e => bv (ix2 0 e)) q := by
  rw [pay1_apply, pay2_eq, pay3_eq, pay6_apply, pay8_apply]
  simp only [pay7_apply]
  rfl

end Cert.BlockRow

end
-- ==== Proof.IdealOperands.lean ====
/-
  The region's six operands, read index by index from the launch contents.

  Before its one region the program prepares six arrays from the nine arguments:
    • x and y, 256 × 64 × 512, re-laid as 16384 × 512 matrices: row-major, so row n = 64·t + b is row (t, b);
    • each of the six weight matrices transposed and then cast; the cast changes no number on the extended reals,
      so the prepared matrix at (k, e) is the argument at (e, k);
    • the transposes of Wr, Wz, Wg side by side as a 512 × 1536 matrix: column e of the first, 512 + e of the second,
      1024 + e of the third piece is column e of that transpose; the transposes of Ur, Uz side by side as 512 × 1024;
    • the transpose of Ug alone;
    • the bias re-laid as a 1 × 512 row.
  Each fact below reads one prepared array at an index as one argument at an index. The column facts take the column's
  value as a hypothesis, so that they apply to whatever spelling of the column a reader of the array produces.
-/
import proofs.«126726_j19524921328134_2_alg».proof.Proof.IdealAround
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Operands

open Cert.KernelIdeal Cert.KernelIdeal.Gen Cert.KernelIdeal.Around
open Idealize.ShloMosaic Idealize.ShloMosaic.TcCoe Idealize.ShloMosaic.ValueIdx Idealize.ShloMosaic.StableHlo

variable (m : (ℓ : Loc nD τ sig) → Buf (Elt Ideal) ℓ) (c : Dev nD)

/-! ## A transposed, cast matrix -/

/-- A weight matrix transposed and then cast reads, at (k, e), the matrix at (e, k): the cast changes no number. -/
theorem transposed_cast_apply (A : (⟨S512x512, .f32⟩ : BufTy).Contents (Elt Ideal)) (k e : Fin 512) :
    ((truncf (F := Ideal) .bf16 (transpose S512x512 [1, 0] A transposes_S512x512_S512x512_1_0) bitsLt_bf16_f32 :
      (⟨S512x512, .bf16⟩ : BufTy).Contents (Elt Ideal))) (ix2 k e) = A (ix2 e k) :=
  transpose_ix2_apply A _ k e

/-! ## The two sequences as matrices -/

/-- Row n = 64·t + b of the re-laid x is row (t, b) of x. -/
theorem seq_x (n : Fin 16384) (k : Fin 512) (t : Fin 256) (b : Fin 64) (h : n.val = 64 * t.val + b.val) :
    entry m c main_v0 (ix2 n k) = m ((c : Thread nD τ).loc main_arg0) (ix3 t b k) := by
  have e0 : (entry m c main_v0 : S16384x512.Idx → EReal)
      = shapeCast S16384x512 (m ((c : Thread nD τ).loc main_arg0)) shapeCasts_S256x64x512_S16384x512 := by
    show StableHlo.after hostOps0 (fun b => m (c, b)) (Proc.devRef .tc main_v0) = _
    after_results
    rfl
  refine (congrFun e0 (ix2 n k)).trans ?_
  refine shapeCast_apply _ _ _ (ix3 t b k) ?_
  rw [Shape.rowMajor_val_three, Shape.rowMajor_val_two]
  show (t.val * 64 + b.val) * 512 + k.val = n.val * 512 + k.val
  omega

/-- Row n = 64·t + b of the re-laid y is row (t, b) of y. -/
theorem seq_y (n : Fin 16384) (k : Fin 512) (t : Fin 256) (b : Fin 64) (h : n.val = 64 * t.val + b.val) :
    entry m c main_v1 (ix2 n k) = m ((c : Thread nD τ).loc main_arg1) (ix3 t b k) := by
  have e1 : (entry m c main_v1 : S16384x512.Idx → EReal)
      = shapeCast S16384x512 (m ((c : Thread nD τ).loc main_arg1)) shapeCasts_S256x64x512_S16384x512 := by
    show StableHlo.after hostOps0 (fun b => m (c, b)) (Proc.devRef .tc main_v1) = _
    after_results
    rfl
  refine (congrFun e1 (ix2 n k)).trans ?_
  refine shapeCast_apply _ _ _ (ix3 t b k) ?_
  rw [Shape.rowMajor_val_three, Shape.rowMajor_val_two]
  show (t.val * 64 + b.val) * 512 + k.val = n.val * 512 + k.val
  omega

/-! ## The three matrices that meet y, side by side -/

/-- The 512 × 1536 operand is the transposed, cast Wr, Wz, Wg laid side by side along the columns. -/
theorem wy_term : (entry m c main_v14 : S512x1536.Idx → EReal)
      = concatenate S512x1536 1
          [⟨S512x512, truncf (F := Ideal) .bf16 (transpose S512x512 [1, 0] (m ((c : Thread nD τ).loc main_arg2)) transposes_S512x512_S512x512_1_0) bitsLt_bf16_f32⟩,
           ⟨S512x512, truncf (F := Ideal) .bf16 (transpose S512x512 [1, 0] (m ((c : Thread nD τ).loc main_arg4)) transposes_S512x512_S512x512_1_0) bitsLt_bf16_f32⟩,
           ⟨S512x512, truncf (F := Ideal) .bf16 (transpose S512x512 [1, 0] (m ((c : Thread nD τ).loc main_arg6)) transposes_S512x512_S512x512_1_0) bitsLt_bf16_f32⟩]
          concatenates_S512x512_S512x512_S512x512_S512x1536_d1 := by
  show StableHlo.after hostOps0 (fun b => m (c, b)) (Proc.devRef .tc main_v14) = _
  after_results
  dsimp only [Matrix.cons_val]
  repeat (first
    | rw [unary_result] | rw [reshape_result]
    | (rw [unary_result_ne]; rotate_left; decide)
    | (rw [reshape_result_ne]; rotate_left; decide))

/-- Column e of the 512 × 1536 operand is column e of the transpose of Wr. -/
theorem wy_r (k e : Fin 512) (col : Fin 1536) (h : col.val = e.val) :
    entry m c main_v14 (ix2 k col) = m ((c : Thread nD τ).loc main_arg2) (ix2 e k) := by
  refine (congrFun (wy_term m c) (ix2 k col)).trans ?_
  refine (concatenate_apply_piece (1 : Fin 2) _ _ (ix2 k col) 0 (by show (0 : Nat) < 3; omega) S512x512 _ rfl rfl 0 rfl (ix2 k e)
    (fun b hb => match b, hb with | ⟨0, _⟩, _ => rfl | ⟨1, _⟩, hb => absurd rfl hb)
    (by show 0 + e.val = col.val; omega)).trans ?_
  exact transposed_cast_apply _ k e

/-- Column 512 + e of the 512 × 1536 operand is column e of the transpose of Wz. -/
theorem wy_z (k e : Fin 512) (col : Fin 1536) (h : col.val = 512 + e.val) :
    entry m c main_v14 (ix2 k col) = m ((c : Thread nD τ).loc main_arg4) (ix2 e k) := by
  refine (congrFun (wy_term m c) (ix2 k col)).trans ?_
  refine (concatenate_apply_piece (1 : Fin 2) _ _ (ix2 k col) 1 (by show (1 : Nat) < 3; omega) S512x512 _ rfl rfl 512 rfl (ix2 k e)
    (fun b hb => match b, hb with | ⟨0, _⟩, _ => rfl | ⟨1, _⟩, hb => absurd rfl hb)
    (by show 512 + e.val = col.val; omega)).trans ?_
  exact transposed_cast_apply _ k e

/-- Column 1024 + e of the 512 × 1536 operand is column e of the transpose of Wg. -/
theorem wy_g (k e : Fin 512) (col : Fin 1536) (h : col.val = 1024 + e.val) :
    entry m c main_v14 (ix2 k col) = m ((c : Thread nD τ).loc main_arg6) (ix2 e k) := by
  refine (congrFun (wy_term m c) (ix2 k col)).trans ?_
  refine (concatenate_apply_piece (1 : Fin 2) _ _ (ix2 k col) 2 (by show (2 : Nat) < 3; omega) S512x512 _ rfl rfl 1024 rfl (ix2 k e)
    (fun b hb => match b, hb with | ⟨0, _⟩, _ => rfl | ⟨1, _⟩, hb => absurd rfl hb)
    (by show 1024 + e.val = col.val; omega)).trans ?_
  exact transposed_cast_apply _ k e

/-! ## The two matrices that meet x, side by side -/

/-- The 512 × 1024 operand is the transposed, cast Ur, Uz laid side by side along the columns. -/
theorem ux_term : (entry m c main_v15 : S512x1024.Idx → EReal)
      = concatenate S512x1024 1
          [⟨S512x512, truncf (F := Ideal) .bf16 (transpose S512x512 [1, 0] (m ((c : Thread nD τ).loc main_arg3)) transposes_S512x512_S512x512_1_0) bitsLt_bf16_f32⟩,
           ⟨S512x512, truncf (F := Ideal) .bf16 (transpose S512x512 [1, 0] (m ((c : Thread nD τ).loc main_arg5)) transposes_S512x512_S512x512_1_0) bitsLt_bf16_f32⟩]
          concatenates_S512x512_S512x512_S512x1024_d1 := by
  show StableHlo.after hostOps0 (fun b => m (c, b)) (Proc.devRef .tc main_v15) = _
  after_results

/-- Column e of the 512 × 1024 operand is column e of the transpose of Ur. -/
theorem ux_r (k e : Fin 512) (col : Fin 1024) (h : col.val = e.val) :
    entry m c main_v15 (ix2 k col) = m ((c : Thread nD τ).loc main_arg3) (ix2 e k) := by
  refine (congrFun (ux_term m c) (ix2 k col)).trans ?_
  refine (concatenate_apply_piece (1 : Fin 2) _ _ (ix2 k col) 0 (by show (0 : Nat) < 2; omega) S512x512 _ rfl rfl 0 rfl (ix2 k e)
    (fun b hb => match b, hb with | ⟨0, _⟩, _ => rfl | ⟨1, _⟩, hb => absurd rfl hb)
    (by show 0 + e.val = col.val; omega)).trans ?_
  exact transposed_cast_apply _ k e

/-- Column 512 + e of the 512 × 1024 operand is column e of the transpose of Uz. -/
theorem ux_z (k e : Fin 512) (col : Fin 1024) (h : col.val = 512 + e.val) :
    entry m c main_v15 (ix2 k col) = m ((c : Thread nD τ).loc main_arg5) (ix2 e k) := by
  refine (congrFun (ux_term m c) (ix2 k col)).trans ?_
  refine (concatenate_apply_piece (1 : Fin 2) _ _ (ix2 k col) 1 (by show (1 : Nat) < 2; omega) S512x512 _ rfl rfl 512 rfl (ix2 k e)
    (fun b hb => match b, hb with | ⟨0, _⟩, _ => rfl | ⟨1, _⟩, hb => absurd rfl hb)
    (by show 512 + e.val = col.val; omega)).trans ?_
  exact transposed_cast_apply _ k e

/-! ## The matrix that meets r · x, and the bias -/

/-- The 512 × 512 operand at (k, e) is Ug at (e, k). -/
theorem ug_t (k e : Fin 512) : entry m c main_v13 (ix2 k e) = m ((c : Thread nD τ).loc main_arg7) (ix2 e k) := by
  have e13 : (entry m c main_v13 : S512x512.Idx → EReal)
      = truncf (F := Ideal) .bf16 (transpose S512x512 [1, 0] (m ((c : Thread nD τ).loc main_arg7)) transposes_S512x512_S512x512_1_0) bitsLt_bf16_f32 := by
    show StableHlo.after hostOps0 (fun b => m (c, b)) (Proc.devRef .tc main_v13) = _
    after_results
  exact (congrFun e13 (ix2 k e)).trans (transposed_cast_apply _ k e)

/-- The 1 × 512 row at (0, e) is the bias at e. -/
theorem bias_row (e : Fin 512) : entry m c main_v16 (ix2 (0 : Fin 1) e) = m ((c : Thread nD τ).loc main_arg8) (ix1 e) := by
  have e16 : (entry m c main_v16 : S1x512.Idx → EReal)
      = shapeCast S1x512 (m ((c : Thread nD τ).loc main_arg8)) shapeCasts_S512_S1x512 := by
    show StableHlo.after hostOps0 (fun b => m (c, b)) (Proc.devRef .tc main_v16) = _
    after_results
    rfl
  exact (congrFun e16 (ix2 (0 : Fin 1) e)).trans (shapeCast_a_1a_apply _ _ 0 e)

end Cert.KernelIdeal.Operands

end
-- ==== Proof.IdealResult.lean ====
/-
  What the kernel program's result buffer holds after the run.

  The region's result is a 16384 × 512 array; grid point t writes back rows 512·t … 512·t + 511 of it, and the 32
  points' blocks tile it. At row 512·t + p and column q the value written back is the body's stored value at (p, q)
  of the six blocks the point reads — the specification's row function of row 512·t + p of the re-laid x and y, of the
  column groups of the prepared weight matrices (which are the rows of the six weight matrices), and of the bias. The
  host line after the region re-lays the 16384 × 512 array as 256 × 64 × 512, row 64·t' + b becoming (t', b). So the
  result buffer holds the gating unit's result of the nine argument arrays.
-/
import proofs.«126726_j19524921328134_2_alg».proof.Proof.IdealRun
import proofs.«126726_j19524921328134_2_alg».proof.Proof.BlockRow
import proofs.«126726_j19524921328134_2_alg».proof.Proof.IdealOperands
import proofs.«126726_j19524921328134_2_alg».proof.Proof.GatingUnit
import Idealize.ShloMosaic.Lib.Pipeline.Value
import Idealize.ShloMosaic.Lib.ValueIdx
import Idealize.ShloMosaic.Lib.StableHlo.Run

set_option maxRecDepth 16384

noncomputable section

namespace Cert.KernelIdeal.Result

open Cert.KernelIdeal Cert.KernelIdeal.Gen Cert.KernelIdeal.Around Cert.GatingUnit
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-! ## The specification at the core's arguments -/

/-- The gating unit's result of core `c`'s nine argument arrays as launched. -/
def unitResult (c : Dev nD) : Seq :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The same, re-laid as 16384 × 512: row n is row (n / 64, n % 64). -/
def flatResult (c : Dev nD) : S16384x512.Idx → EReal := fun i =>
  unitResult m c (ix3 ⟨(i 0).val / 64, by have h : (i 0).val < 16384 := (i 0).isLt; omega⟩
    ⟨(i 0).val % 64, Nat.mod_lt _ (by norm_num)⟩ (i 1))

/-! ## Where the blocks sit -/

/-- The printed index maps, decided over the 32 points: the blocks of the two sequences and of the result move down
    the rows with the point; the weights' and the bias's never move. -/
theorem moves : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 32 := lt_of_lt_of_eq t.isLt N_0

/-- Row p of the block of the re-laid x at point t is row 512·t + p of the array. -/
theorem x_block (c : Dev nD) (t : Fin cfg0.N) (p k : Fin 512) :
    blockAt m c 0 t (ix2 p k)
      = entry m c main_v0 (ix2 ⟨512 * t.val + p.val, by have := point_lt t; have := p.isLt; omega⟩ k) := by
  obtain ⟨e0, e1, -⟩ := moves t
  show entry m c main_v0 (((cfg0.win 0).blk t).view.emb (ix2 p k)) = _
  congr 1; funext a; apply Fin.ext
  match a with
  | ⟨0, _⟩ => show win0_0.index t (0 : Fin 2) * 512 + 1 * p.val = 512 * t.val + p.val; omega
  | ⟨1, _⟩ => show win0_0.index t (1 : Fin 2) * 512 + 1 * k.val = k.val; omega

/-- The same of y. -/
theorem y_block (c : Dev nD) (t : Fin cfg0.N) (p k : Fin 512) :
    blockAt m c 1 t (ix2 p k)
      = entry m c main_v1 (ix2 ⟨512 * t.val + p.val, by have := point_lt t; have := p.isLt; omega⟩ k) := by
  obtain ⟨-, -, e0, e1, -⟩ := moves t
  show entry m c main_v1 (((cfg0.win 1).blk t).view.emb (ix2 p k)) = _
  congr 1; funext a; apply Fin.ext
  match a with
  | ⟨0, _⟩ => show win0_1.index t (0 : Fin 2) * 512 + 1 * p.val = 512 * t.val + p.val; omega
  | ⟨1, _⟩ => show win0_1.index t (1 : Fin 2) * 512 + 1 * k.val = k.val; omega

/-- The block of the three y-side weights is the whole 512 × 1536 matrix at every point. -/
theorem wy_block (c : Dev nD) (t : Fin cfg0.N) (k : Fin 512) (col : Fin 1536) :
    blockAt m c 2 t (ix2 k col) = entry m c main_v14 (ix2 k col) := by
  obtain ⟨-, -, -, -, e0, e1, -⟩ := moves t
  show entry m c main_v14 (((cfg0.win 2).blk t).view.emb (ix2 k col)) = _
  congr 1; funext a; apply Fin.ext
  match a with
  | ⟨0, _⟩ => show win0_2.index t (0 : Fin 2) * 512 + 1 * k.val = k.val; omega
  | ⟨1, _⟩ => show win0_2.index t (1 : Fin 2) * 1536 + 1 * col.val = col.val; omega

/-- The block of the two x-side weights is the whole 512 × 1024 matrix. -/
theorem ux_block (c : Dev nD) (t : Fin cfg0.N) (k : Fin 512) (col : Fin 1024) :
    blockAt m c 3 t (ix2 k col) = entry m c main_v15 (ix2 k col) := by
  obtain ⟨-, -, -, -, -, -, e0, e1, -⟩ := moves t
  show entry m c main_v15 (((cfg0.win 3).blk t).view.emb (ix2 k col)) = _
  congr 1; funext a; apply Fin.ext
  match a with
  | ⟨0, _⟩ => show win0_3.index t (0 : Fin 2) * 512 + 1 * k.val = k.val; omega
  | ⟨1, _⟩ => show win0_3.index t (1 : Fin 2) * 1024 + 1 * col.val = col.val; omega

/-- The block of the candidate's weight is the whole 512 × 512 matrix. -/
theorem ug_block (c : Dev nD) (t : Fin cfg0.N) (k e : Fin 512) :
    blockAt m c 4 t (ix2 k e) = entry m c main_v13 (ix2 k e) := by
  obtain ⟨-, -, -, -, -, -, -, -, e0, e1, -⟩ := moves t
  show entry m c main_v13 (((cfg0.win 4).blk t).view.emb (ix2 k e)) = _
  congr 1; funext a; apply Fin.ext
  match a with
  | ⟨0, _⟩ => show win0_4.index t (0 : Fin 2) * 512 + 1 * k.val = k.val; omega
  | ⟨1, _⟩ => show win0_4.index t (1 : Fin 2) * 512 + 1 * e.val = e.val; omega

/-- The block of the bias is the whole 1 × 512 row. -/
theorem bias_block (c : Dev nD) (t : Fin cfg0.N) (z : Fin 1) (e : Fin 512) :
    blockAt m c 5 t (ix2 z e) = entry m c main_v16 (ix2 z e) := by
  obtain ⟨-, -, -, -, -, -, -, -, -, -, e0, e1, -⟩ := moves t
  show entry m c main_v16 (((cfg0.win 5).blk t).view.emb (ix2 z e)) = _
  congr 1; funext a; apply Fin.ext
  match a with
  | ⟨0, _⟩ => show win0_5.index t (0 : Fin 2) * 1 + 1 * z.val = z.val; omega
  | ⟨1, _⟩ => show win0_5.index t (1 : Fin 2) * 512 + 1 * e.val = e.val; omega

/-! ## The result's blocks tile its array -/

/-- An index of the result array is in point `t`'s block iff each coordinate is in the block's range on its axis. -/
theorem in_block (t : Fin cfg0.N) (i : S16384x512.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v17).slice (win0_6.rect t)).set ↔ _
  rw [View.set_slice_whole, Rect.mem_set_unit]
  exact Iff.rfl

/-- Row r of the result array lies in the block of point r / 512, which is written back. -/
theorem covered (i : S16384x512.Idx) :
    ∃ t : Fin cfg0.N, (cfg0.win 6).flush t = true ∧ i ∈ ((cfg0.win 6).blk t).view.set := by
  have hi0 : (i 0).val < 16384 := (i 0).isLt
  have hi1 : (i 1).val < 512 := (i 1).isLt
  have hN : (i 0).val / 512 < cfg0.N := by rw [show cfg0.N = 32 from N_0]; omega
  obtain ⟨-, -, -, -, -, -, -, -, -, -, -, -, e0, e1⟩ := moves ⟨(i 0).val / 512, hN⟩
  refine ⟨⟨(i 0).val / 512, hN⟩, flush0_6 _, ?_⟩
  rw [in_block]
  intro a
  match a with
  | ⟨0, _⟩ =>
    show win0_6.index ⟨(i 0).val / 512, hN⟩ (0 : Fin 2) * 512 ≤ (i 0).val
      ∧ (i 0).val < win0_6.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_6.index ⟨(i 0).val / 512, hN⟩ (1 : Fin 2) * 512 ≤ (i 1).val
      ∧ (i 1).val < win0_6.index ⟨(i 0).val / 512, hN⟩ (1 : Fin 2) * 512 + 512
    rw [e1]; omega

/-! ## What point t writes back -/

/-- Point `t` writes back block `t` of the re-laid result of the arguments: at (p, q) the stored value is the row
    function of row 512·t + p of the re-laid sequences — row ((512·t + p) / 64, (512·t + p) % 64) of x and of y — of the
    rows of the six weight matrices (the columns of the prepared, transposed ones) and of the bias. -/
theorem written_back (c : Dev nD) (t : Fin cfg0.N) :
    (data m 0 c).flushed 6 t = ((cfg0.win 6).blk t).view.read (Elt Ideal) (flatResult m c) := by
  show (cfg0.win 6).cut (grid0.coords t) ((data m 0 c).after 6 t) = _
  rw [left6]
  unfold outBlock
  rw [View.canon_unit_zero zeros]
  simp only [View.ld_unit_zero (S := S512x512) zeros, View.ld_unit_zero (S := S512x1536) zeros,
    View.ld_unit_zero (S := S512x1024) zeros, View.ld_unit_zero (S := S1x512) zeros]
  funext j
  obtain ⟨p, q, rfl⟩ : ∃ (p q : Fin 512), j = ix2 p q := ⟨j 0, j 1, eq_ix2 j⟩
  obtain ⟨-, -, -, -, -, -, -, -, -, -, -, -, e0, e1⟩ := moves t
  have ht := point_lt t
  have hp := p.isLt
  -- the row of the re-laid sequences this entry depends on, and its place in the 256 × 64 arrangement
  have hrow : 512 * t.val + p.val < 16384 := by omega
  have hT : (512 * t.val + p.val) / 64 < 256 := by omega
  have hB : (512 * t.val + p.val) % 64 < 64 := Nat.mod_lt _ (by norm_num)
  have hsplit : 512 * t.val + p.val = 64 * ((512 * t.val + p.val) / 64) + (512 * t.val + p.val) % 64 :=
    (Nat.div_add_mod _ 64).symm
  -- the stored value at (p, q) is the row function of the six blocks' rows and columns
  refine (Cert.BlockRow.payload_row (blockAt m c 0 t) (blockAt m c 1 t) (blockAt m c 2 t) (blockAt m c 3 t)
    (blockAt m c 4 t) (blockAt m c 5 t) p q).trans ?_
  -- each of which is a row of an argument array
  have hx : (fun k : Fin 512 => blockAt m c 0 t (ix2 p k))
      = rowOf (m ((c : Thread nD τ).loc main_arg0)) ⟨(512 * t.val + p.val) / 64, hT⟩ ⟨(512 * t.val + p.val) % 64, hB⟩ :=
    funext fun k => (x_block m c t p k).trans (Cert.KernelIdeal.Operands.seq_x m c ⟨512 * t.val + p.val, hrow⟩ k _ _ hsplit)
  have hy : (fun k : Fin 512 => blockAt m c 1 t (ix2 p k))
      = rowOf (m ((c : Thread nD τ).loc main_arg1)) ⟨(512 * t.val + p.val) / 64, hT⟩ ⟨(512 * t.val + p.val) % 64, hB⟩ :=
    funext fun k => (y_block m c t p k).trans (Cert.KernelIdeal.Operands.seq_y m c ⟨512 * t.val + p.val, hrow⟩ k _ _ hsplit)
  have hwr : (fun (e k : Fin 512) => blockAt m c 2 t (ix2 k ⟨e.val, by have := e.isLt; omega⟩))
      = gridOf (m ((c : Thread nD τ).loc main_arg2)) :=
    funext fun e => funext fun k => (wy_block m c t k _).trans (Cert.KernelIdeal.Operands.wy_r m c k e _ rfl)
  have hur : (fun (e k : Fin 512) => blockAt m c 3 t (ix2 k ⟨e.val, by have := e.isLt; omega⟩))
      = gridOf (m ((c : Thread nD τ).loc main_arg3)) :=
    funext fun e => funext fun k => (ux_block m c t k _).trans (Cert.KernelIdeal.Operands.ux_r m c k e _ rfl)
  have hwz : (fun (e k : Fin 512) => blockAt m c 2 t (ix2 k ⟨512 + e.val, by have := e.isLt; omega⟩))
      = gridOf (m ((c : Thread nD τ).loc main_arg4)) :=
    funext fun e => funext fun k => (wy_block m c t k _).trans (Cert.KernelIdeal.Operands.wy_z m c k e _ rfl)
  have huz : (fun (e k : Fin 512) => blockAt m c 3 t (ix2 k ⟨512 + e.val, by have := e.isLt; omega⟩))
      = gridOf (m ((c : Thread nD τ).loc main_arg5)) :=
    funext fun e => funext fun k => (ux_block m c t k _).trans (Cert.KernelIdeal.Operands.ux_z m c k e _ rfl)
  have hwg : (fun (e k : Fin 512) => blockAt m c 2 t (ix2 k ⟨1024 + e.val, by have := e.isLt; omega⟩))
      = gridOf (m ((c : Thread nD τ).loc main_arg6)) :=
    funext fun e => funext fun k => (wy_block m c t k _).trans (Cert.KernelIdeal.Operands.wy_g m c k e _ rfl)
  have hug : (fun (e k : Fin 512) => blockAt m c 4 t (ix2 k e)) = gridOf (m ((c : Thread nD τ).loc main_arg7)) :=
    funext fun e => funext fun k => (ug_block m c t k e).trans (Cert.KernelIdeal.Operands.ug_t m c k e)
  have hbg : (fun e : Fin 512 => blockAt m c 5 t (ix2 0 e)) = biasOf (m ((c : Thread nD τ).loc main_arg8)) :=
    funext fun e => (bias_block m c t 0 e).trans (Cert.KernelIdeal.Operands.bias_row m c e)
  rw [hx, hy, hwr, hur, hwz, huz, hwg, hug, hbg]
  -- and the entry of the result array this block entry is: row 512·t + p, column q
  have hemb : ((cfg0.win 6).blk t).view.emb (ix2 p q) = ix2 (⟨512 * t.val + p.val, hrow⟩ : Fin 16384) q := by
    funext a; apply Fin.ext
    match a with
    | ⟨0, _⟩ => show win0_6.index t (0 : Fin 2) * 512 + 1 * p.val = 512 * t.val + p.val; omega
    | ⟨1, _⟩ => show win0_6.index t (1 : Fin 2) * 512 + 1 * q.val = q.val; omega
  show _ = flatResult m c (((cfg0.win 6).blk t).view.emb (ix2 p q))
  rw [hemb]
  rfl

/-! ## The array, and the result buffer -/

/-- The region's result array after the run is the re-laid result of the arguments. -/
theorem array_after (c : Dev nD) : (data m 0 c).arrAt 6 cfg0.N = flatResult m c :=
  (data m 0 c).arrAt_eq_of_cover 6 (flatResult m c) (fun t _ => written_back m c t) covered

/-- The host line after the region re-lays it as 256 × 64 × 512: the result buffer holds the gating unit's result. -/
theorem result_buffer (c : Dev nD) :
    Pipeline.afterTail₀ cfgs (data m) 0 (entryAll m) [hostOps1] c main_v18 = unitResult m c := by
  unfold Pipeline.afterTail₀
  show StableHlo.after hostOps1 _ (Proc.devRef .tc main_v18) = _
  after_results
  funext i
  obtain ⟨t, b, e, rfl⟩ : ∃ (t : Fin 256) (b : Fin 64) (e : Fin 512), i = ix3 t b e := ⟨i 0, i 1, i 2, eq_ix3 i⟩
  show shapeCast S256x64x512 (Pipeline.withArrays spec0 c (entryAll m c) (fun w => (data m 0 c).arrAt w cfg0.N) (Proc.devRef .tc main_v17))
    shapeCasts_S16384x512_S256x64x512 (ix3 t b e) = _
  rw [show Pipeline.withArrays spec0 c (entryAll m c) (fun w => (data m 0 c).arrAt w cfg0.N) (Proc.devRef .tc main_v17)
      = (data m 0 c).arrAt 6 cfg0.N from Pipeline.withArrays_arr spec0 launch0.win.arr_inj c _ _ 6, array_after]
  have ht := t.isLt
  have hb := b.isLt
  rw [shapeCast_apply (flatResult m c) shapeCasts_S16384x512_S256x64x512 (ix3 t b e)
    (ix2 (⟨64 * t.val + b.val, by omega⟩ : Fin 16384) e)
    (by rw [Shape.rowMajor_val_two, Shape.rowMajor_val_three]
        show (64 * t.val + b.val) * 512 + e.val = (t.val * 64 + b.val) * 512 + e.val; omega)]
  -- row 64·t + b of the re-laid result is row (t, b)
  show unitResult m c (ix3 ⟨(64 * t.val + b.val) / 64, _⟩ ⟨(64 * t.val + b.val) % 64, _⟩ e) = unitResult m c (ix3 t b e)
  congr 1
  funext a; apply Fin.ext
  match a with
  | ⟨0, _⟩ => show (64 * t.val + b.val) / 64 = t.val; omega
  | ⟨1, _⟩ => show (64 * t.val + b.val) % 64 = b.val; omega
  | ⟨2, _⟩ => rfl

/-! ## The run, read -/

/-- Every weakly fair execution of the kernel program terminates with the result buffer at the gating unit's result of
    the arguments and the nine argument arrays as launched. -/
theorem run : θ_run defs (onTc (τ := τ) (main (F := Ideal))) ⟨m, fun _ => 0, ρ⟩ (fun r => ∀ c : Dev nD,
      r.2.mem ((c.tc : Thread nD τ).loc main_v18) = unitResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v18 (Pipeline.mem_restRefs_of main_v18 (by decide) (by decide))).trans (result_buffer m c),
      ((h c).2 main_arg0 (Pipeline.mem_restRefs_of main_arg0 (by decide) (by decide))).trans
        (exit_of_unwritten m (data m) c main_arg0 (by decide) (by decide) (by decide)),
      ((h c).2 main_arg1 (Pipeline.mem_restRefs_of main_arg1 (by decide) (by decide))).trans
        (exit_of_unwritten m (data m) c main_arg1 (by decide) (by decide) (by decide)),
      ((h c).2 main_arg2 (Pipeline.mem_restRefs_of main_arg2 (by decide) (by decide))).trans
        (exit_of_unwritten m (data m) c main_arg2 (by decide) (by decide) (by decide)),
      ((h c).2 main_arg3 (Pipeline.mem_restRefs_of main_arg3 (by decide) (by decide))).trans
        (exit_of_unwritten m (data m) c main_arg3 (by decide) (by decide) (by decide)),
      ((h c).2 main_arg4 (Pipeline.mem_restRefs_of main_arg4 (by decide) (by decide))).trans
        (exit_of_unwritten m (data m) c main_arg4 (by decide) (by decide) (by decide)),
      ((h c).2 main_arg5 (Pipeline.mem_restRefs_of main_arg5 (by decide) (by decide))).trans
        (exit_of_unwritten m (data m) c main_arg5 (by decide) (by decide) (by decide)),
      ((h c).2 main_arg6 (Pipeline.mem_restRefs_of main_arg6 (by decide) (by decide))).trans
        (exit_of_unwritten m (data m) c main_arg6 (by decide) (by decide) (by decide)),
      ((h c).2 main_arg7 (Pipeline.mem_restRefs_of main_arg7 (by decide) (by decide))).trans
        (exit_of_unwritten m (data m) c main_arg7 (by decide) (by decide) (by decide)),
      ((h c).2 main_arg8 (Pipeline.mem_restRefs_of main_arg8 (by decide) (by decide))).trans
        (exit_of_unwritten m (data m) c main_arg8 (by decide) (by decide) (by decide))⟩)
    (run_main m ρ)

end Cert.KernelIdeal.Result

end
-- ==== Proof.RefIsUnit.lean ====
/-
  The reference program computes the gating unit.

  Read one operation at a time, the reference's result at an index (t, b, e) is a term in the rows (t, b) of x and y,
  the six matrices and the bias. Its three stages are the specification's three row functions:

    the quotient  1 / (1 + e^(−v))  with  v = Σ_k y(t,b,k)·Wr(e,k) + Σ_k x(t,b,k)·Ur(e,k)            is the reset gate at e,
    the same quotient with  v = (Σ_k y(t,b,k)·Wz(e,k) + Σ_k x(t,b,k)·Uz(e,k)) − bg(e)                 is the update gate at e,
    tanh ( Σ_k y(t,b,k)·Wg(e,k) + Σ_k (r(t,b,k)·x(t,b,k))·Ug(e,k) )                                   is the candidate at e,

  and the last line is (1 − z)·x + z·h. The candidate's second sum runs over the whole row of the reset gate, so the
  reset stage is identified at every coordinate k of the row, not only at e, and then used under the sum.
  Every contraction reads its left operand at (t, b, k) and its matrix at (e, k); the bias, broadcast in two steps, is read at e.
  Nothing is reordered, distributed or cancelled: the two sides are the same term, so no entry needs to be finite.
-/
import proofs.«126726_j19524921328134_2_alg».proof.Proof.Gen.ReferenceIdeal.Read
import proofs.«126726_j19524921328134_2_alg».proof.Proof.GatingUnit
import Idealize.ShloMosaic.PureOps.Ideal
import Idealize.ShloMosaic.Lib.ValueIdx

noncomputable section

namespace Cert.RefSide

open Cert.ReferenceIdeal Cert.ReferenceIdeal.Read Cert.GatingUnit Idealize.ShloMosaic Idealize.ShloMosaic.ValueIdx

/-! ## Where each contraction reads its operands

  At the output index (t, b, e) and the summation index k, the left operand is read at (t, b, k) and the matrix at (e, k).
  The six contractions have the same index maps; each is stated for its own stage. -/

theorem left_v0 (t : Fin 256) (b : Fin 64) (e k : Fin 512) : lidx_main_v0 (ix3 t b e) k = ix3 t b k :=
  funext fun a => Fin.ext (by match a with | ⟨0, _⟩ => rfl | ⟨1, _⟩ => rfl | ⟨2, _⟩ => rfl)
theorem right_v0 (t : Fin 256) (b : Fin 64) (e k : Fin 512) : ridx_main_v0 (ix3 t b e) k = ix2 e k :=
  funext fun a => Fin.ext (by match a with | ⟨0, _⟩ => rfl | ⟨1, _⟩ => rfl)
theorem left_v1 (t : Fin 256) (b : Fin 64) (e k : Fin 512) : lidx_main_v1 (ix3 t b e) k = ix3 t b k :=
  funext fun a => Fin.ext (by match a with | ⟨0, _⟩ => rfl | ⟨1, _⟩ => rfl | ⟨2, _⟩ => rfl)
theorem right_v1 (t : Fin 256) (b : Fin 64) (e k : Fin 512) : ridx_main_v1 (ix3 t b e) k = ix2 e k :=
  funext fun a => Fin.ext (by match a with | ⟨0, _⟩ => rfl | ⟨1, _⟩ => rfl)
theorem left_v9 (t : Fin 256) (b : Fin 64) (e k : Fin 512) : lidx_main_v9 (ix3 t b e) k = ix3 t b k :=
  funext fun a => Fin.ext (by match a with | ⟨0, _⟩ => rfl | ⟨1, _⟩ => rfl | ⟨2, _⟩ => rfl)
theorem right_v9 (t : Fin 256) (b : Fin 64) (e k : Fin 512) : ridx_main_v9 (ix3 t b e) k = ix2 e k :=
  funext fun a => Fin.ext (by match a with | ⟨0, _⟩ => rfl | ⟨1, _⟩ => rfl)
theorem left_v10 (t : Fin 256) (b : Fin 64) (e k : Fin 512) : lidx_main_v10 (ix3 t b e) k = ix3 t b k :=
  funext fun a => Fin.ext (by match a with | ⟨0, _⟩ => rfl | ⟨1, _⟩ => rfl | ⟨2, _⟩ => rfl)
theorem right_v10 (t : Fin 256) (b : Fin 64) (e k : Fin 512) : ridx_main_v10 (ix3 t b e) k = ix2 e k :=
  funext fun a => Fin.ext (by match a with | ⟨0, _⟩ => rfl | ⟨1, _⟩ => rfl)
theorem left_v21 (t : Fin 256) (b : Fin 64) (e k : Fin 512) : lidx_main_v21 (ix3 t b e) k = ix3 t b k :=
  funext fun a => Fin.ext (by match a with | ⟨0, _⟩ => rfl | ⟨1, _⟩ => rfl | ⟨2, _⟩ => rfl)
theorem right_v21 (t : Fin 256) (b : Fin 64) (e k : Fin 512) : ridx_main_v21 (ix3 t b e) k = ix2 e k :=
  funext fun a => Fin.ext (by match a with | ⟨0, _⟩ => rfl | ⟨1, _⟩ => rfl)
theorem left_v23 (t : Fin 256) (b : Fin 64) (e k : Fin 512) : lidx_main_v23 (ix3 t b e) k = ix3 t b k :=
  funext fun a => Fin.ext (by match a with | ⟨0, _⟩ => rfl | ⟨1, _⟩ => rfl | ⟨2, _⟩ => rfl)
theorem right_v23 (t : Fin 256) (b : Fin 64) (e k : Fin 512) : ridx_main_v23 (ix3 t b e) k = ix2 e k :=
  funext fun a => Fin.ext (by match a with | ⟨0, _⟩ => rfl | ⟨1, _⟩ => rfl)

/-- The bias, broadcast first to 1 × 1 × 512 and then to 256 × 64 × 512, is read at e. -/
theorem bias_at (t : Fin 256) (b : Fin 64) (e : Fin 512) : idx_main_v12 (idx_main_v13 (ix3 t b e)) = ix1 e :=
  funext fun a => Fin.ext (by match a with | ⟨0, _⟩ => rfl)

/-! ## The three stages -/

/-- The reset stage at ANY coordinate k of row (t, b) is the reset gate of that row at k:
    1 / (1 + e^(−v)) with v = Σ_j y(t,b,j)·Wr(k,j) + Σ_j x(t,b,j)·Ur(k,j). -/
theorem reset_at (x0 x1 : (⟨S256x64x512, .f32⟩ : BufTy).Contents (Elt Ideal)) (x2 x3 : (⟨S512x512, .f32⟩ : BufTy).Contents (Elt Ideal))
    (t : Fin 256) (b : Fin 64) (k : Fin 512) :
    val_main_v8 (F := Ideal) x0 x1 x2 x3 (ix3 t b k)
      = resetRow (rowOf x0 t b) (rowOf x1 t b) (gridOf x2) (gridOf x3) k := by
  rw [val_main_v8_apply, val_main_v7_apply, val_main_cst_0_apply, val_main_v6_apply, val_main_v5_apply, val_main_cst_apply,
    val_main_v4_apply, val_main_v3_apply, val_main_v2_apply, val_main_v0_apply, val_main_v1_apply]
  simp only [left_v0, right_v0, left_v1, right_v1, Ideal.hostDivf_def, Ideal.addf_def, Ideal.hostUnary_exp_def,
    Ideal.hostNegf_def, Ideal.negf_def, Ideal.ofBits_def]
  rfl

/-- The update stage at (t, b, e) is the update gate of row (t, b) at e: the same quotient with the bias subtracted
    from the two contractions' sum. -/
theorem update_at (x0 x1 : (⟨S256x64x512, .f32⟩ : BufTy).Contents (Elt Ideal)) (x4 x5 : (⟨S512x512, .f32⟩ : BufTy).Contents (Elt Ideal))
    (x8 : (⟨S512, .f32⟩ : BufTy).Contents (Elt Ideal)) (t : Fin 256) (b : Fin 64) (e : Fin 512) :
    val_main_v20 (F := Ideal) x0 x1 x4 x5 x8 (ix3 t b e)
      = updateRow (rowOf x0 t b) (rowOf x1 t b) (gridOf x4) (gridOf x5) (biasOf x8) e := by
  rw [val_main_v20_apply, val_main_v19_apply, val_main_cst_2_apply, val_main_v18_apply, val_main_v17_apply, val_main_cst_1_apply,
    val_main_v16_apply, val_main_v15_apply, val_main_v14_apply, val_main_v11_apply, val_main_v9_apply, val_main_v10_apply,
    val_main_v13_apply, val_main_v12_apply]
  simp only [left_v9, right_v9, left_v10, right_v10, bias_at, Ideal.hostDivf_def, Ideal.addf_def, Ideal.subf_def,
    Ideal.hostUnary_exp_def, Ideal.hostNegf_def, Ideal.negf_def, Ideal.ofBits_def]
  rfl

/-- The candidate stage at (t, b, e) is the candidate of row (t, b) at e. Its second contraction reads the product of the
    reset stage and x at (t, b, k) for every k: there the reset stage is the row's reset gate at k. -/
theorem candidate_at (x0 x1 : (⟨S256x64x512, .f32⟩ : BufTy).Contents (Elt Ideal)) (x2 x3 x6 x7 : (⟨S512x512, .f32⟩ : BufTy).Contents (Elt Ideal))
    (t : Fin 256) (b : Fin 64) (e : Fin 512) :
    val_main_v25 (F := Ideal) x0 x1 x2 x3 x6 x7 (ix3 t b e)
      = candidateRow (rowOf x0 t b) (rowOf x1 t b) (gridOf x2) (gridOf x3) (gridOf x6) (gridOf x7) e := by
  rw [val_main_v25_apply, val_main_v24_apply, val_main_v21_apply, val_main_v23_apply]
  simp only [left_v21, right_v21, left_v23, right_v23, val_main_v22_apply, reset_at, Ideal.hostUnary_tanh_def,
    Ideal.addf_def, Ideal.mulf_def]
  rfl

/-! ## The result -/

/-- The reference's result is the gating unit's: at (t, b, e) it is (1 − z)·x + z·h of row (t, b) at e. -/
theorem ref_is_unit (x0 x1 : (⟨S256x64x512, .f32⟩ : BufTy).Contents (Elt Ideal)) (x2 x3 x4 x5 x6 x7 : (⟨S512x512, .f32⟩ : BufTy).Contents (Elt Ideal)) (x8 : (⟨S512, .f32⟩ : BufTy).Contents (Elt Ideal)) :
    Cert.ReferenceIdeal.Read.val_main_v30 (F := Ideal) x0 x1 x2 x3 x4 x5 x6 x7 x8 = Cert.GatingUnit.result x0 x1 x2 x3 x4 x5 x6 x7 x8 := by
  funext i
  obtain ⟨t, b, e, rfl⟩ : ∃ (t : Fin 256) (b : Fin 64) (e : Fin 512), i = ix3 t b e := ⟨i 0, i 1, i 2, eq_ix3 i⟩
  rw [val_main_v30_apply, val_main_v28_apply, val_main_v27_apply, val_main_v26_apply, val_main_cst_3_apply, val_main_v29_apply,
    update_at, candidate_at]
  simp only [Ideal.addf_def, Ideal.subf_def, Ideal.mulf_def, Ideal.ofBits_def]
  rfl

end Cert.RefSide

end
-- ==== Proof.lean ====
/-
  The certificate's claim: a gating unit computed two ways.

  Both programs take two sequences x, y of 256 × 64 rows of 512 numbers, six 512 × 512 weight matrices and a bias, and
  return  g = (1 − z) · x + z · h  with  r = σ(y·Wrᵀ + x·Urᵀ),  z = σ(y·Wzᵀ + x·Uzᵀ − bg),  h = tanh(y·Wgᵀ + (r · x)·Ugᵀ).
  The reference computes it with six contractions over the whole arrays and σ v = 1 / (1 + e^(−v)). The kernel re-lays
  the sequences as 16384 rows, transposes the weights and sets them side by side so that three wide products per block of
  512 rows replace the six, cuts the products' column groups apart, and spells σ v as 1/2 · (1 + tanh (v/2)).

  On the extended reals, where a change of float format changes nothing, the two are one function of the arguments:
  a wide product's column group IS the narrow product (the same products, summed over the same index, in the same order
  of the factors), re-laying and transposing only rename indices, and the two spellings of σ agree at every extended
  real, the infinities included. Nothing is distributed, cancelled or reordered, so the inputs' finiteness is never used.

  The three frames: each kernel program is seventeen host operations, one pipelined region of 32 points and one host
  operation, and none of them writes an argument; the reference is host operations only. The idealization rewrote
  nothing, so that conjunct is trivial.
-/
import proofs.«126726_j19524921328134_2_alg».proof.Defs
import proofs.«126726_j19524921328134_2_alg».proof.Proof.Gen.Kernel
import proofs.«126726_j19524921328134_2_alg».proof.Proof.Gen.KernelIdeal
import proofs.«126726_j19524921328134_2_alg».proof.Proof.Gen.ReferenceIdeal
import proofs.«126726_j19524921328134_2_alg».proof.Proof.Gen.Pre_finite_inputs
import proofs.«126726_j19524921328134_2_alg».proof.Proof.BitsRun
import proofs.«126726_j19524921328134_2_alg».proof.Proof.IdealResult
import proofs.«126726_j19524921328134_2_alg».proof.Proof.RefIsUnit
import Idealize.ShloMosaic.Adequacy
import Idealize.ShloMosaic.Init

noncomputable section

namespace Cert.Proof

open Idealize.ShloMosaic Idealize.SL.Sem

/-- The word-level kernel program runs to the end and leaves its arguments as launched. -/
theorem frame_bits : Cert.frame_Kernel := fun m ρ _ => Cert.Kernel.Around.frame m ρ

/-- So does the idealized one. -/
theorem frame_ideal : Cert.frame_KernelIdeal := fun m ρ _ => Cert.KernelIdeal.Around.frame m ρ

/-- So does the reference: its run, with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments both programs end with the gating unit's result of those arguments:
    the kernel's result buffer by its run read block by block, the reference's by its operations read one at a time. -/
theorem algebraic : Cert.algebraic_KernelIdeal_ReferenceIdeal := by
  intro m ρ m' ρ' _ hagree
  refine ⟨fun c => Cert.KernelIdeal.Result.unitResult m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.RefSide.ref_is_unit]
  obtain ⟨a0, a1, a2, a3, a4, a5, a6, a7, a8⟩ := hagree c
  rw [a0, a1, a2, a3, a4, a5, a6, a7, a8]
  rfl

theorem claim : Cert.Claim :=
  ⟨Cert.Kernel.Gen.facts, Cert.KernelIdeal.Gen.facts, Cert.ReferenceIdeal.Gen.facts, Cert.Pre_finite_inputs.Gen.facts,
    frame_bits, frame_ideal, frame_ref, preserves, algebraic⟩

end Cert.Proof

end
